-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S2000x128 : Shape := ⟨2, ![2000, 128]⟩
abbrev S2000x1 : Shape := ⟨2, ![2000, 1]⟩
abbrev S2000 : Shape := ⟨1, ![2000]⟩
abbrev S1x128 : Shape := ⟨2, ![1, 128]⟩
abbrev S800000x128 : Shape := ⟨2, ![800000, 128]⟩

abbrev nBuf : Space → Nat
  | .hbm => 47
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .bf16⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .bf16⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128, .f32⟩
  | .local _ .vmem, ⟨3, _⟩ => ⟨S128, .f32⟩
  | .local _ .vmem, ⟨4, _⟩ => ⟨S128x128, .f32⟩
  | .local _ .vmem, ⟨5, _⟩ => ⟨S2000x1, .f32⟩
  | .local _ .vmem, ⟨6, _⟩ => ⟨S2000x1, .f32⟩
  | .local _ .vmem, ⟨7, _⟩ => ⟨S2000x128, .bf16⟩
  | .local _ .vmem, ⟨8, _⟩ => ⟨S2000x128, .bf16⟩
  | .local _ .vmem, ⟨9, _⟩ => ⟨S2000x128, .f32⟩
  | .local _ .vmem, ⟨10, _⟩ => ⟨S2000x128, .f32⟩
  | .local _ .vmem, ⟨11, _⟩ => ⟨S2000x128, .bf16⟩
  | .local _ .vmem, ⟨12, _⟩ => ⟨S2000x128, .bf16⟩
  | .local _ .vmem, ⟨13, _⟩ => ⟨S2000x1, .f32⟩
  | .local _ .vmem, ⟨14, _⟩ => ⟨S2000x1, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  reduces_S2000x128_S2000 : S2000x128.Reduces [1] S2000
  shapeCasts_S2000_S2000x1 : S2000.ShapeCasts S2000x1
  broadcasts_S2000x1_S2000x128 : S2000x1.Broadcasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S2000x128_S2000x128 : S2000x128.ShapeCasts S2000x128
  scatter_S50000_S800000x1_S800000_n_0_0_1_wf : ScatterDims.WF S50000 S800000x1 S800000 [] [0] [0] 1
  dot_S2000x128_S128x128_S2000x128_1_1_0_0_n_n_wf : DotDims.WF S2000x128 S128x128 S2000x128 [1] [1] [0] [0] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S50000x1.size a
  hwx0_4 : ∀ i : grid0.Coords, EltTy.bits .f32 = 32 ∨ (Rect.block (s := S50000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .bf16 = 32 ∨ (Rect.block (s := S50000x128) S2000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v29) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128 : Shape := ⟨1, ![128]⟩
abbrev S128x128 : Shape := ⟨2, ![128, 128]⟩
abbrev S_ : Shape := ⟨0, ![]⟩
abbrev S50000 : Shape := ⟨1, ![50000]⟩
abbrev S50000x1 : Shape := ⟨2, ![50000, 1]⟩
abbrev S1x128 : Shape := ⟨2, ![1, 128]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x128 : Shape := ⟨2, ![850000, 128]⟩

abbrev nBuf : Space → Nat
  | .hbm => 106
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S50000, .f32⟩
  | .hbm, ⟨8, _⟩ => ⟨S50000x1, .f32⟩
  | .hbm, ⟨9, _⟩ => ⟨S_, .f32⟩
  | .hbm, ⟨10, _⟩ => ⟨S50000x1, .f32⟩
  | .hbm, ⟨11, _⟩ => ⟨S50000x1, .f32⟩
  | .hbm, ⟨12, _⟩ => ⟨S50000x128, .f32⟩
  | .hbm, ⟨13, _⟩ => ⟨S50000x128, .f32⟩
  | .hbm, ⟨14, _⟩ => ⟨S50000x128, .f32⟩
  | .hbm, ⟨15, _⟩ => ⟨S_, .f32⟩
  | .hbm, ⟨16, _⟩ => ⟨S50000, .f32⟩
  | .hbm, ⟨17, _⟩ => ⟨S50000x1, .f32⟩
  | .hbm, ⟨18, _⟩ => ⟨S_, .f32⟩
  | .hbm, ⟨19, _⟩ => ⟨S50000x1, .f32⟩
  | .hbm, ⟨20, _⟩ => ⟨S50000x1, .f32⟩
  | .hbm, ⟨21, _⟩ => ⟨S50000x128, .f32⟩
  | .hbm, ⟨22, _⟩ => ⟨S50000x128, .f32⟩
  | .hbm, ⟨23, _⟩ => ⟨S_, .f32⟩
  | .hbm, ⟨24, _⟩ => ⟨S50000x1, .f32⟩
  | .hbm, ⟨25, _⟩ => ⟨S50000x1, .f32⟩
  | .hbm, ⟨26, _⟩ => ⟨S50000x1, .f32⟩
  | .hbm, ⟨27, _⟩ => ⟨S50000x128, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S128x128, .f32⟩
  | .hbm, ⟨36, _⟩ => ⟨S50000x128, .f32⟩
  | .hbm, ⟨37, _⟩ => ⟨S1x800000, .i32⟩
  | .hbm, ⟨38, _⟩ => ⟨S800000, .i32⟩
  | .hbm, ⟨39, _⟩ => ⟨S50000, .i32⟩
  | .hbm, ⟨40, _⟩ => ⟨S850000, .i32⟩
  | .hbm, ⟨41, _⟩ => ⟨S1x800000, .i32⟩
  | .hbm, ⟨42, _⟩ => ⟨S800000, .i32⟩
  | .hbm, ⟨43, _⟩ => ⟨S50000, .i32⟩
  | .hbm, ⟨44, _⟩ => ⟨S850000, .i32⟩
  | .hbm, ⟨45, _⟩ => ⟨S_, .f32⟩
  | .hbm, ⟨46, _⟩ => ⟨S800000, .f32⟩
  | .hbm, ⟨47, _⟩ => ⟨S_, .f32⟩
  | .hbm, ⟨48, _⟩ => ⟨S50000, .f32⟩
  | .hbm, ⟨49, _⟩ => ⟨S850000, .f32⟩
  | .hbm, ⟨50, _⟩ => ⟨S_, .f32⟩
  | .hbm, ⟨51, _⟩ => ⟨S50000, .f32⟩
  | .hbm, ⟨52, _⟩ => ⟨S850000x1, .i32⟩
  | .hbm, ⟨53, _⟩ => ⟨S50000, .f32⟩
  | .hbm, ⟨54, _⟩ => ⟨S_, .f32⟩
  | .hbm, ⟨55, _⟩ => ⟨S50000, .f32⟩
  | .hbm, ⟨56, _⟩ => ⟨S50000, .i1⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S50000, .f32⟩
  | .hbm, ⟨61, _⟩ => ⟨S_, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000, .f32⟩
  | .hbm, ⟨74, _⟩ => ⟨S850000, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000, .f32⟩
  | .hbm, ⟨84, _⟩ => ⟨S850000, .f32⟩
  | .hbm, ⟨85, _⟩ => ⟨S_, .i32⟩
  | .hbm, ⟨86, _⟩ => ⟨S850000, .i32⟩
  | .hbm, ⟨87, _⟩ => ⟨S850000, .i1⟩
  | .hbm, ⟨88, _⟩ => ⟨S_, .i32⟩
  | .hbm, ⟨89, _⟩ => ⟨S850000, .i32⟩
  | .hbm, ⟨90, _⟩ => ⟨S850000, .i32⟩
  | .hbm, ⟨91, _⟩ => ⟨S850000, .i32⟩
  | .hbm, ⟨92, _⟩ => ⟨S850000x1, .i32⟩
  | .hbm, ⟨93, _⟩ => ⟨S850000x128, .f32⟩
  | .hbm, ⟨94, _⟩ => ⟨S850000x1, .f32⟩
  | .hbm, ⟨95, _⟩ => ⟨S850000x128, .f32⟩
  | .hbm, ⟨96, _⟩ => ⟨S850000x128, .f32⟩
  | .hbm, ⟨97, _⟩ => ⟨S_, .f32⟩
  | .hbm, ⟨98, _⟩ => ⟨S50000x128, .f32⟩
  | .hbm, ⟨99, _⟩ => ⟨S850000x1, .i32⟩
  | .hbm, ⟨100, _⟩ => ⟨S50000x128, .f32⟩
  | .hbm, ⟨101, _⟩ => ⟨S1x128, .f32⟩
  | .hbm, ⟨102, _⟩ => ⟨S50000x128, .f32⟩
  | .hbm, ⟨103, _⟩ => ⟨S50000x128, .f32⟩
  | .hbm, ⟨104, _⟩ => ⟨S50000x128, .f32⟩
  | .hbm, ⟨105, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_call0_v0 : Ref sig .tc := ⟨.hbm, 62, rfl⟩
abbrev main_call0_v1 : Ref sig .tc := ⟨.hbm, 63, rfl⟩
abbrev main_v45 : Ref sig .tc := ⟨.hbm, 64, rfl⟩
abbrev main_c : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_c_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_13 : Ref sig .tc := ⟨.hbm, 85, rfl⟩
abbrev main_v62 : Ref sig .tc := ⟨.hbm, 86, rfl⟩
abbrev main_v63 : Ref sig .tc := ⟨.hbm, 87, rfl⟩
abbrev main_c_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩

abbrev nD : Nat := 1
abbrev τ : Topo := Topo.v7x

variable {F : FTy → Type} [FloatOps F]

class Facts₀ : Prop where
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S128x128_S128x128_1_0 : S128x128.Transposes [1, 0] S128x128
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KRun.lean ====
/-
  The run of the whole program with its result named: every weakly fair execution terminates, nothing faulting, with
  the result buffer at the contents the last kernel's write-backs leave and the arguments unchanged. The run is the
  same chain of host stretches and kernel launches that gives the frame; only the final state is read at one more
  buffer.
-/
import proofs.«114811_j35897336660176_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read off the last boundary's contents. -/
theorem run_value : θ_run defs (onTc (τ := τ) (main (F := F))) ⟨m, fun _ => 0, ρ⟩ (fun r => ∀ c : Dev nD,
      r.2.mem ((c.tc : Thread nD τ).loc main_v29) = W6 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v29 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.GcnRows.lean ====
/-
  The row-wise part of the computation, as plain functions of one row of 128 extended reals.

  A row r is normalised (mean over the 128 entries, variance as the mean of the squared deviations, the deviation
  times rsqrt(variance + 1e-5), scaled by gamma and shifted by beta: rowGate) and mapped through the weights with
  the input axis contracted, Σ_k gate(k) · W(j, k): rowLin. Both programs compute exactly these per row; they
  differ only in how many rows they hold at a time.
-/
import Idealize.ShloMosaic.PureOps.Ideal
import Idealize.ShloMosaic.Lib.ValueIdx

noncomputable section

open scoped BigOperators

namespace Cert.GcnRows

open Idealize.ShloMosaic Idealize.ShloMosaic.ValueIdx

abbrev SV : Shape := ⟨1, ![128]⟩
abbrev SW : Shape := ⟨2, ![128, 128]⟩

/-- The mean of a row. -/
def rowMean (r : Fin 128 → EReal) : EReal := Ideal.div (∑ k, r k) (Ideal.ofBits .f32 0x43000000#32)

/-- The variance of a row: the mean of the squared deviations from the mean. -/
def rowVar (r : Fin 128 → EReal) : EReal :=
  Ideal.div (∑ k, (r k - rowMean r) * (r k - rowMean r)) (Ideal.ofBits .f32 0x43000000#32)

/-- The normalised, scaled and shifted row. -/
def rowGate (r : Fin 128 → EReal) (g b : SV.Idx → EReal) (k : Fin 128) : EReal :=
  (r k - rowMean r) * Ideal.rsqrt (rowVar r + Ideal.ofBits .f32 0x3727C5AC#32) * g (ix1 k) + b (ix1 k)

/-- The row through the weights, the weights' second axis contracted. -/
def rowLin (r : Fin 128 → EReal) (g b : SV.Idx → EReal) (W : SW.Idx → EReal) (j : Fin 128) : EReal :=
  ∑ k, rowGate r g b k * W (ix2 j k)

end Cert.GcnRows

end
-- ==== Proof.LibRowOps.lean ====
/-
  Row-wise reductions and column broadcasts of a matrix, read at an index, over the extended reals.

  For an a × b matrix: the maximum (or sum) over a row, whether taken by a vector reduction from a neutral
  accumulator or by the host's reduce from an initial value, is at row p the fold of max (or the sum) over the b
  columns of the entries (p, j). A vector of a entries stood up as an a × 1 column reads entry p at (p, 0), and
  that column spread over b columns reads (p, 0) at every (p, q); both in the vector spelling (shape cast, broadcast)
  and in the host's (broadcast in dimensions).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.RowOps

open Idealize.ShloMosaic Idealize.ShloMosaic.ValueIdx

variable {a b : Nat} {α : Type}

/-- A vector stood up as a column: entry p sits at (p, 0). -/
theorem colCast_apply (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's column of a vector: entry p sits at (p, 0). -/
theorem colInDim_apply (v : (⟨1, ![a]⟩ : Shape).Idx → α) (h : (⟨1, ![a]⟩ : Shape).BroadcastsInDim ⟨2, ![a, 1]⟩ ![0])
    (p : Fin a) : broadcastInDim ⟨2, ![a, 1]⟩ ![0] h v (ix2 p (0 : Fin 1)) = v (ix1 p) := by
  refine broadcastInDim_apply ![0] h v (ix2 p (0 : Fin 1)) (ix1 p) fun ax => ?_
  match ax with
  | ⟨0, _⟩ =>
    show p.val = if a = 1 then 0 else p.val
    split
    · have := p.isLt; omega
    · rfl

/-- The host's spread of a column over b columns reads its entry (p, 0) at every (p, q). -/
theorem colInDim2_apply (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply ![0, 1] h w (ix2 p q) (ix2 p (0 : Fin 1)) fun ax => ?_
  match ax with
  | ⟨0, _⟩ =>
    show p.val = if a = 1 then 0 else p.val
    split
    · have := p.isLt; omega
    · rfl
  | ⟨1, _⟩ => rfl

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A vector reduction's row maximum: the fold of max over the row's entries from the accumulator's value. -/
theorem rowMax_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun j => src (ix2 p j)) := by
  refine (Ideal.multiReduction_maximumf_single src acc h hφ hacc (ix1 p)).trans ?_
  have hf : (src ∘ h.lift (ix1 p)) = fun k : Fin b => src (ix2 p k) := funext fun k => congrArg src (lift_row h p k)
  exact congrArg (fun f => Finset.fold max (Ideal.ofBits .f32 acc) f (Finset.univ : Finset (Fin b))) hf

/-- The host's row maximum: the fold of max over the row's entries from the initial value. -/
theorem rowMax_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) (fun j => x (ix2 p j)) := by
  rw [Host.reduce_eq_fold_single FloatOps.maximumf x init h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- A vector reduction's row sum. -/
theorem rowSum_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ j : Fin b, src (ix2 p j) := by
  refine (Ideal.multiReduction_add_single src acc h hφ hacc (ix1 p)).trans ?_
  exact Finset.sum_congr rfl fun k _ => congrArg src (lift_row h p k)

/-- The host's row sum: the initial value plus the sum of the row's entries. -/
theorem rowSum_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd x init h' hu (ix1 p) = init (Shape.Idx.first hu) + ∑ j : Fin b, x (ix2 p j) := by
  show Ideal.hostReduceAdd h' x (init (Shape.Idx.first hu)) (ix1 p) = _
  rw [Ideal.hostReduceAdd_single h' h]
  exact congrArg (fun s => init (Shape.Idx.first hu) + s) (Finset.sum_congr rfl fun k _ => congrArg x (lift_row h p k))

end Idealize.ShloMosaic.RowOps

end
-- ==== Proof.LibRowSpread.lean ====
/-
  A one-row matrix spread over many rows, and a scalar spread over an array, read at an index.

  A 1 × b matrix broadcast to a × b reads its entry (0, q) at every (p, q), whether the broadcast is the vector
  one or the host's broadcast in dimensions [0, 1]; a rank-0 array broadcast in no dimensions reads its one entry
  everywhere.
-/
import Idealize.ShloMosaic.Lib.Pipeline.Value
import Idealize.ShloMosaic.Lib.ValueIdx

noncomputable section

namespace Idealize.ShloMosaic.RowSpread

open Idealize.ShloMosaic Idealize.ShloMosaic.ValueIdx

variable {a b : Nat} {α : Type}

/-- A row spread over a rows by the vector broadcast reads its entry (0, q) at every (p, q). -/
theorem rowBcast_apply (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a row over a rows reads its entry (0, q) at every (p, q). -/
theorem rowInDim2_apply (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply ![0, 1] h w (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a scalar reads its one entry everywhere. -/
theorem scalarInDim_apply {s : Shape} (v : (⟨0, ![]⟩ : Shape).Idx → α)
    (h : (⟨0, ![]⟩ : Shape).BroadcastsInDim s ![]) (i : s.Idx) :
    broadcastInDim s ![] h v i = v ix0 :=
  broadcastInDim_apply ![] h v i ix0 fun ax => ax.elim0

end Idealize.ShloMosaic.RowSpread

end
-- ==== Proof.LibTransDot.lean ====
/-
  A matrix product with the right operand transposed, read at an index, over the extended reals.

  For the dimension numbers of an M×K by N×K product (contract the left operand's second axis with the
  right operand's second axis; no batch axes: lhs · rhsᵀ) the entry (i, j) of the product is the sum over k of
  lhs (i, k) · rhs (j, k): stated once for a `tpu.matmul` accumulating into the zero splat and once for the
  host's `dot_general`, for any extents M, K, N. The contraction index of such a product has one axis of
  extent K, and the sum over it is re-indexed by that coordinate.
-/
import Idealize.ShloMosaic.Lib.ValueIdx
import Idealize.ShloMosaic.PureOps.Ideal.Laws

noncomputable section

open scoped BigOperators

namespace Idealize.ShloMosaic.TransDot

open Idealize.ShloMosaic Idealize.ShloMosaic.ValueIdx

variable {M K N : Nat}

/-- The left operand's row coordinate is the result's row coordinate. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction coordinate. -/
theorem lhs_col (j : (⟨2, ![M, N]⟩ : Shape).Idx) (q : (DotDims.transposedRhs M K N).contr.Idx) :
    ((DotDims.transposedRhs M K N).lhsIdx j q 1).val = (q ⟨0, show 0 < (DotDims.transposedRhs M K N).contr.rank from Nat.one_pos⟩).val :=
  (DotDims.transposedRhs M K N).lhsIdx_val_of_single rfl j q

/-- The right operand's row coordinate is the result's column coordinate. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction coordinate. -/
theorem rhs_col (j : (⟨2, ![M, N]⟩ : Shape).Idx) (q : (DotDims.transposedRhs M K N).contr.Idx) :
    ((DotDims.transposedRhs M K N).rhsIdx j q 1).val = (q ⟨0, show 0 < (DotDims.transposedRhs M K N).contr.rank from Nat.one_pos⟩).val :=
  (DotDims.transposedRhs M K N).rhsIdx_val_of_single rfl j q

/-- The sum over the contraction index is the sum over k of lhs (i, k) · rhs (j, k). -/
theorem sum_contr (lhs : (⟨2, ![M, K]⟩ : Shape).Idx → EReal) (rhs : (⟨2, ![N, K]⟩ : Shape).Idx → EReal)
    (i : Fin M) (j : Fin N) :
    (∑ q : (DotDims.transposedRhs M K N).contr.Idx,
        lhs ((DotDims.transposedRhs M K N).lhsIdx (ix2 i j) q) * rhs ((DotDims.transposedRhs M K N).rhsIdx (ix2 i j) q))
      = ∑ k : Fin K, lhs (ix2 i k) * rhs (ix2 j k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => exact lhs_row _ _
      | ⟨1, _⟩ => exact (lhs_col _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => exact rhs_row _ _
      | ⟨1, _⟩ => exact (rhs_col _ _).trans hk)
  rw [el, er]

/-- A `tpu.matmul` of these dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) :=
  (Ideal.matmul_constant_zero_apply (DotDims.transposedRhs M K N) prec lhs rhs (ix2 i j)).trans (sum_contr lhs rhs i j)

/-- The host's `dot_general` of these dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (i : Fin M) (j : Fin N) :
    FloatOps.dotGeneral (DotDims.transposedRhs M K N) prec sched lhs rhs (ix2 i j)
      = ∑ k : Fin K, lhs (ix2 i k) * rhs (ix2 j k) :=
  (Ideal.dotGeneral_apply (DotDims.transposedRhs M K N) prec sched lhs rhs (ix2 i j)).trans (sum_contr lhs rhs i j)

end Idealize.ShloMosaic.TransDot

end
-- ==== Proof.K0Pay.lean ====
/-
  What the first kernel stores, read at an entry: for a block of rows X with the per-row factors dv, entry (p, q)
  is rowLin of row p of X at q, times dv(p). The row sums are lane reductions, the per-row quantities are stood up
  as columns and spread back over the 128 lanes, gamma and beta are spread over the rows, and the product with the
  weights contracts the weights' second axis. The block's intermediate values are named (the column of means, the
  deviations, the column of variances, the normalised block) and each is read at an entry in turn.
-/
import proofs.«114811_j35897336660176_2_alg».proof.Proof.Gen.KernelIdeal.Skeleton
import proofs.«114811_j35897336660176_2_alg».proof.Proof.GcnRows
import proofs.«114811_j35897336660176_2_alg».proof.Proof.LibRowOps
import proofs.«114811_j35897336660176_2_alg».proof.Proof.LibRowSpread
import proofs.«114811_j35897336660176_2_alg».proof.Proof.LibTransDot
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.GcnRows

/-- A vector of 128 entries viewed as one row and spread over 2000 rows reads entry q at every (p, q). -/
theorem rowOfVec_apply (v : Vec Ideal S128 .f32) (p : Fin 2000) (q : Fin 128) :
    broadcastTo S2000x128 (shapeCast S1x128 v shapeCasts_S128_S1x128) broadcasts_S1x128_S2000x128 (ix2 p q) = v (ix1 q) := by
  rw [RowSpread.rowBcast_apply]
  exact shapeCast_apply v shapeCasts_S128_S1x128 (ix2 (0 : Fin 1) q) (ix1 q) (by
    rw [Shape.rowMajor_val_one, Shape.rowMajor_val_two]; show q.val = 0 * 128 + q.val; omega)

/-- A per-row column spread over the 128 lanes reads its entry (p, 0) at every (p, q). -/
theorem colSpread_apply (v : FVec Ideal S2000x1 .f32) (p : Fin 2000) (q : Fin 128) :
    broadcastTo S2000x128 v broadcasts_S2000x1_S2000x128 (ix2 p q) = v (ix2 p (0 : Fin 1)) :=
  RowOps.colBcast_apply v broadcasts_S2000x1_S2000x128 p q

/-- A lane sum stood up as a column reads the row's sum at (p, 0). -/
theorem rowSumCol_apply (x : FVec Ideal S2000x128 .f32) (p : Fin 2000) :
    shapeCast S2000x1 (multiReduction .add [1] S2000 x 0x00000000#32 reduces_S2000x128_S2000 (.inl rfl) rfl)
      shapeCasts_S2000_S2000x1 (ix2 p (0 : Fin 1)) = ∑ k : Fin 128, x (ix2 p k) := by
  rw [RowOps.colCast_apply]
  exact RowOps.rowSum_vector x 0x00000000#32 reduces_S2000x128_S2000 (.inl rfl) rfl p

/-! ## The block's intermediate values -/

/-- The column of row means. -/
def meanCol (v0 : Vec Ideal S2000x128 .f32) : FVec Ideal S2000x1 .f32 :=
  divf (shapeCast S2000x1 (multiReduction .add [1] S2000 v0 0x00000000#32 reduces_S2000x128_S2000 (.inl rfl) rfl)
    shapeCasts_S2000_S2000x1) (broadcast S2000x1 (Scalar.ofBits .f32 0x43000000#32))

/-- The deviations from the row means. -/
def devBlk (v0 : Vec Ideal S2000x128 .f32) : FVec Ideal S2000x128 .f32 :=
  subf v0 (broadcastTo S2000x128 (meanCol v0) broadcasts_S2000x1_S2000x128)

/-- The column of row variances. -/
def varCol (v0 : Vec Ideal S2000x128 .f32) : FVec Ideal S2000x1 .f32 :=
  divf (shapeCast S2000x1 (multiReduction .add [1] S2000 (mulf (devBlk v0) (devBlk v0)) 0x00000000#32
      reduces_S2000x128_S2000 (.inl rfl) rfl) shapeCasts_S2000_S2000x1)
    (broadcast S2000x1 (Scalar.ofBits .f32 0x43000000#32))

/-- The normalised, scaled and shifted block. -/
def gateBlk (v0 : Vec Ideal S2000x128 .f32) (v19 v23 : Vec Ideal S128 .f32) : FVec Ideal S2000x128 .f32 :=
  addf (mulf (mulf (devBlk v0)
      (broadcastTo S2000x128 (rsqrt (addf (varCol v0) (broadcast S2000x1 (Scalar.ofBits .f32 0x3727C5AC#32))))
        broadcasts_S2000x1_S2000x128))
      (broadcastTo S2000x128 (shapeCast S1x128 v19 shapeCasts_S128_S1x128) broadcasts_S1x128_S2000x128))
    (broadcastTo S2000x128 (shapeCast S1x128 v23 shapeCasts_S128_S1x128) broadcasts_S1x128_S2000x128)

/-- The stored block over the named values. -/
theorem k0_pay1_eq (v0 : Vec Ideal S2000x128 .f32) (v19 v23 : Vec Ideal S128 .f32) (v28 : Vec Ideal S128x128 .f32)
    (v31 : Vec Ideal S2000x1 .f32) :
    k0_pay1 v0 v19 v23 v28 v31
      = truncf .bf16 (mulf (matmul dot_S2000x128_S128x128_S2000x128_1_1_0_0_n_n none
            (truncf .bf16 (gateBlk v0 v19 v23) bitsLt_bf16_f32) (truncf .bf16 v28 bitsLt_bf16_f32)
            (constant S2000x128 .f32 0x00000000#32))
          (broadcastTo S2000x128 (shapeCast S2000x1 v31 shapeCasts_S2000x1_S2000x1) broadcasts_S2000x1_S2000x128))
        bitsLt_bf16_f32 := rfl

theorem meanCol_apply (v0 : Vec Ideal S2000x128 .f32) (p : Fin 2000) :
    meanCol v0 (ix2 p (0 : Fin 1)) = rowMean (fun k => v0 (ix2 p k)) := by
  show Ideal.div (shapeCast S2000x1 _ shapeCasts_S2000_S2000x1 (ix2 p (0 : Fin 1))) _ = _
  rw [rowSumCol_apply]
  rfl

theorem devBlk_apply (v0 : Vec Ideal S2000x128 .f32) (p : Fin 2000) (k : Fin 128) :
    devBlk v0 (ix2 p k) = v0 (ix2 p k) - rowMean (fun k => v0 (ix2 p k)) := by
  show v0 (ix2 p k) - broadcastTo S2000x128 (meanCol v0) broadcasts_S2000x1_S2000x128 (ix2 p k) = _
  rw [colSpread_apply, meanCol_apply]

theorem varCol_apply (v0 : Vec Ideal S2000x128 .f32) (p : Fin 2000) :
    varCol v0 (ix2 p (0 : Fin 1)) = rowVar (fun k => v0 (ix2 p k)) := by
  show Ideal.div (shapeCast S2000x1 _ shapeCasts_S2000_S2000x1 (ix2 p (0 : Fin 1))) _ = _
  rw [rowSumCol_apply]
  unfold rowVar
  refine congrArg₂ Ideal.div (Finset.sum_congr rfl fun k _ => ?_) rfl
  show devBlk v0 (ix2 p k) * devBlk v0 (ix2 p k) = _
  rw [devBlk_apply]

theorem gateBlk_apply (v0 : Vec Ideal S2000x128 .f32) (v19 v23 : Vec Ideal S128 .f32) (p : Fin 2000) (k : Fin 128) :
    gateBlk v0 v19 v23 (ix2 p k) = rowGate (fun k => v0 (ix2 p k)) v19 v23 k := by
  show devBlk v0 (ix2 p k)
      * broadcastTo S2000x128 (rsqrt (addf (varCol v0) (broadcast S2000x1 (Scalar.ofBits .f32 0x3727C5AC#32))))
          broadcasts_S2000x1_S2000x128 (ix2 p k)
      * broadcastTo S2000x128 (shapeCast S1x128 v19 shapeCasts_S128_S1x128) broadcasts_S1x128_S2000x128 (ix2 p k)
      + broadcastTo S2000x128 (shapeCast S1x128 v23 shapeCasts_S128_S1x128) broadcasts_S1x128_S2000x128 (ix2 p k) = _
  rw [rowOfVec_apply, rowOfVec_apply, colSpread_apply, devBlk_apply]
  show (v0 (ix2 p k) - rowMean (fun k => v0 (ix2 p k)))
      * Ideal.rsqrt (varCol v0 (ix2 p (0 : Fin 1)) + Ideal.ofBits .f32 0x3727C5AC#32) * v19 (ix1 k) + v23 (ix1 k) = _
  rw [varCol_apply]
  rfl

/-- The first kernel's stored block at (p, q). -/
theorem k0_pay1_apply (v0 : Vec Ideal S2000x128 .f32) (v19 v23 : Vec Ideal S128 .f32) (v28 : Vec Ideal S128x128 .f32)
    (v31 : Vec Ideal S2000x1 .f32) (p : Fin 2000) (q : Fin 128) :
    k0_pay1 v0 v19 v23 v28 v31 (ix2 p q)
      = rowLin (fun k => v0 (ix2 p k)) v19 v23 v28 q * v31 (ix2 p (0 : Fin 1)) := by
  rw [k0_pay1_eq]
  show matmul (F := Ideal) dot_S2000x128_S128x128_S2000x128_1_1_0_0_n_n none _ _ _ (ix2 p q)
      * broadcastTo S2000x128 (shapeCast S2000x1 v31 shapeCasts_S2000x1_S2000x1) broadcasts_S2000x1_S2000x128 (ix2 p q) = _
  rw [colSpread_apply, shapeCast_self]
  refine congrArg (· * v31 (ix2 p (0 : Fin 1))) ?_
  rw [show dot_S2000x128_S128x128_S2000x128_1_1_0_0_n_n = DotDims.transposedRhs 2000 128 128 from rfl]
  refine (TransDot.matmul_zero_apply none _ _ p q).trans ?_
  unfold rowLin
  refine Finset.sum_congr rfl fun k _ => ?_
  show gateBlk v0 v19 v23 (ix2 p k) * v28 (ix2 q k) = _
  rw [gateBlk_apply]

end Cert.KernelIdeal.Pay

end
-- ==== Proof.K1Pay.lean ====
/-
  What the second kernel stores, read at an entry: with dv the per-row factors, S the summed incoming rows, H the
  pre-scaled rows, b the bias and X the input, entry (p, q) is tanh((dv(p) · S(p,q) + (2 · dv(p)) · H(p,q)) + b(q)) · X(p,q).
-/
import proofs.«114811_j35897336660176_2_alg».proof.Proof.K0Pay

noncomputable section

open scoped BigOperators

namespace Cert.KernelIdeal.Pay

open Cert.KernelIdeal Cert.KernelIdeal.Gen Idealize.ShloMosaic Idealize.ShloMosaic.ValueIdx

/-- The second kernel's stored block at (p, q). -/
theorem k1_pay1_apply (v0 : Vec Ideal S2000x1 .f32) (v2 : Vec Ideal S2000x128 .bf16) (v5 : Vec Ideal S2000x128 .f32)
    (v14 : Vec Ideal S128 .f32) (v19 : Vec Ideal S2000x128 .f32) (p : Fin 2000) (q : Fin 128) :
    k1_pay1 v0 v2 v5 v14 v19 (ix2 p q)
      = Ideal.tanh ((v0 (ix2 p (0 : Fin 1)) * v5 (ix2 p q)
            + (Ideal.ofBits .f32 0x40000000#32 * v0 (ix2 p (0 : Fin 1))) * v2 (ix2 p q)) + v14 (ix1 q)) * v19 (ix2 p q) := by
  unfold k1_pay1
  show Ideal.tanh ((broadcastTo S2000x128 (shapeCast S2000x1 v0 shapeCasts_S2000x1_S2000x1) broadcasts_S2000x1_S2000x128 (ix2 p q)
          * shapeCast S2000x128 v5 shapeCasts_S2000x128_S2000x128 (ix2 p q)
        + broadcastTo S2000x128 (mulf (broadcast S2000x1 (Scalar.ofBits (F := Ideal) .f32 0x40000000#32))
              (shapeCast S2000x1 v0 shapeCasts_S2000x1_S2000x1)) broadcasts_S2000x1_S2000x128 (ix2 p q)
          * shapeCast S2000x128 v2 shapeCasts_S2000x128_S2000x128 (ix2 p q))
      + broadcastTo S2000x128 (shapeCast S1x128 v14 shapeCasts_S128_S1x128) broadcasts_S1x128_S2000x128 (ix2 p q))
    * v19 (ix2 p q) = _
  rw [rowOfVec_apply, colSpread_apply, colSpread_apply, shapeCast_self, shapeCast_self, shapeCast_self]
  rfl

end Cert.KernelIdeal.Pay

end
-- ==== Proof.KBlocks.lean ====
/-
  From blocks to arrays, for both kernels, at any contents V of the buffers when the kernel is entered.

  Each kernel runs over 25 blocks of 2000 rows; the block at point t holds rows 2000·t … 2000·t + 1999, of the input
  as of the output, and the small operands (gamma, beta, the weights, the bias) are whole at every point. What a point
  writes back is therefore the block of ONE function of the whole arrays, row by row, and the 25 blocks cover the array.
-/
import proofs.«114811_j35897336660176_2_alg».proof.Proof.Gen.KernelIdeal.Frame
import proofs.«114811_j35897336660176_2_alg».proof.Proof.K1Pay
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem Cert.GcnRows
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The first kernel -/

/-- Row r, column j of the pre-scaled rows: the row of x through the layer norm and the weights, times the row's factor. -/
def h2At (x : S50000x128.Idx → EReal) (g b : S128.Idx → EReal) (W : S128x128.Idx → EReal) (dv : S50000x1.Idx → EReal)
    (r : Fin 50000) (j : Fin 128) : EReal :=
  rowLin (fun k => x (ix2 r k)) g b W j * dv (ix2 r (0 : Fin 1))

/-- The whole array the first kernel leaves. -/
def H2 (x : S50000x128.Idx → EReal) (g b : S128.Idx → EReal) (W : S128x128.Idx → EReal) (dv : S50000x1.Idx → EReal) :
    S50000x128.Idx → EReal := fun i => h2At x g b W dv (i 0) (i 1)

/-- The index maps over the grid: the row-blocked windows sit at block t, the small operands at block 0. -/
theorem idx_facts0 : ∀ t : Fin cfg0.N, win0_0.index t (0 : Fin 2) = t.val ∧ win0_0.index t (1 : Fin 2) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 ∧ t.val < 25 :=
  (by decide +kernel : ∀ t : Fin grid0.N, _)

theorem idx_onto0 : ∀ q0 : Fin 25, ∃ t : Fin cfg0.N, t.val = q0.val :=
  (by decide +kernel : ∀ q0 : Fin 25, ∃ t : Fin grid0.N, t.val = q0.val)

/-- What point t of the first kernel writes back is block t of H2 of the arrays as the kernel finds them. -/
theorem flushed0 (c : Dev nD) (t : Fin cfg0.N) :
    (dat0 V c).flushed 5 t = ((cfg0.win 5).blk t).view.read (Elt Ideal)
      (H2 (V c main_arg0) (V c main_arg2) (V c main_arg3) (V c main_arg4) (V c main_v16)) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128) hz1,
    View.ld_unit_zero (S := S128x128) hz2, View.ld_unit_zero (S := S2000x1) hz2]
  obtain ⟨e00, e01, e1, e2, e30, e31, e40, e41, e50, e51, ht⟩ := idx_facts0 t
  funext j
  obtain ⟨p, q, rfl⟩ : ∃ (p : Fin 2000) (q : Fin 128), j = ix2 p q := ⟨j 0, j 1, eq_ix2 j⟩
  have hp := p.isLt
  have hq := q.isLt
  have hr : t.val * 2000 + p.val < 50000 := by omega
  have hout : ((cfg0.win 5).blk t).view.emb (ix2 p q) = ix2 (⟨t.val * 2000 + p.val, hr⟩ : Fin 50000) q := by
    funext a; apply Fin.ext
    match a with
    | ⟨0, _⟩ => show win0_5.index t (0 : Fin 2) * 2000 + 1 * p.val = t.val * 2000 + p.val; omega
    | ⟨1, _⟩ => show win0_5.index t (1 : Fin 2) * 128 + 1 * q.val = q.val; omega
  have h0 : ∀ k : Fin 128, iblk0 V c 0 t (ix2 p k) = V c main_arg0 (ix2 (⟨t.val * 2000 + p.val, hr⟩ : Fin 50000) k) := by
    intro k
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  have h1 : (iblk0 V c 1 t : S128.Idx → EReal) = V c main_arg2 := by
    funext y
    show V c main_arg2 (((cfg0.win 1).blk t).view.emb y) = _
    refine congrArg (V c main_arg2) (funext fun a => Fin.ext ?_)
    match a with
    | ⟨0, _⟩ => show win0_1.index t (0 : Fin 1) * 128 + 1 * (y 0).val = (y 0).val; omega
  have h2 : (iblk0 V c 2 t : S128.Idx → EReal) = V c main_arg3 := by
    funext y
    show V c main_arg3 (((cfg0.win 2).blk t).view.emb y) = _
    refine congrArg (V c main_arg3) (funext fun a => Fin.ext ?_)
    match a with
    | ⟨0, _⟩ => show win0_2.index t (0 : Fin 1) * 128 + 1 * (y 0).val = (y 0).val; omega
  have h3 : (iblk0 V c 3 t : S128x128.Idx → EReal) = V c main_arg4 := by
    funext y
    show V c main_arg4 (((cfg0.win 3).blk t).view.emb y) = _
    refine congrArg (V c main_arg4) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  have h4 : iblk0 V c 4 t (ix2 p (0 : Fin 1)) = V c main_v16 (ix2 (⟨t.val * 2000 + p.val, hr⟩ : Fin 50000) (0 : Fin 1)) := by
    show V c main_v16 (((cfg0.win 4).blk t).view.emb (ix2 p (0 : Fin 1))) = _
    refine congrArg (V c main_v16) (funext fun a => Fin.ext ?_)
    match a with
    | ⟨0, _⟩ => show win0_4.index t (0 : Fin 2) * 2000 + 1 * p.val = t.val * 2000 + p.val; omega
    | ⟨1, _⟩ => show win0_4.index t (1 : Fin 2) * 1 + 1 * 0 = 0; omega
  refine (Pay.k0_pay1_apply (iblk0 V c 0 t) (iblk0 V c 1 t) (iblk0 V c 2 t) (iblk0 V c 3 t) (iblk0 V c 4 t) p q).trans ?_
  rw [View.read_apply, hout]
  show _ = h2At (V c main_arg0) (V c main_arg2) (V c main_arg3) (V c main_arg4) (V c main_v16) ⟨t.val * 2000 + p.val, hr⟩ q
  unfold h2At
  rw [h4, h1, h2, h3]
  simp only [h0]

/-- An index of the array is in point t's block iff each coordinate is in the block's range on its axis. -/
theorem mem_blk0 (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v17).slice (win0_5.rect t)).set ↔ _
  rw [View.set_slice_whole, Rect.mem_set_unit]
  exact Iff.rfl

/-- The 25 blocks cover the array. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto0 ⟨(i 0).val / 2000, by omega⟩
  obtain ⟨e00, e01, e1, e2, e30, e31, e40, e41, e50, e51, ht'⟩ := idx_facts0 t
  have ht2 : t.val = (i 0).val / 2000 := ht
  refine ⟨t, flush0_5 t, ?_⟩
  rw [mem_blk0]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 128 ≤ (i 1).val ∧ (i 1).val < win0_5.index t (1 : Fin 2) * 128 + 128
    omega

/-- The array the first kernel leaves. -/
theorem final0 (c : Dev nD) : (dat0 V c).arrAt 5 cfg0.N
    = H2 (V c main_arg0) (V c main_arg2) (V c main_arg3) (V c main_arg4) (V c main_v16) :=
  (dat0 V c).arrAt_eq_of_cover 5 _ (fun t _ => flushed0 V c t) cover0

/-! ## The second kernel -/

/-- Row r, column q of the result: the gate tanh(aggregate) times the input. -/
def outAt (seg h2 : S50000x128.Idx → EReal) (dv : S50000x1.Idx → EReal) (b : S128.Idx → EReal) (x : S50000x128.Idx → EReal)
    (r : Fin 50000) (q : Fin 128) : EReal :=
  Ideal.tanh ((dv (ix2 r (0 : Fin 1)) * seg (ix2 r q)
      + (Ideal.ofBits .f32 0x40000000#32 * dv (ix2 r (0 : Fin 1))) * h2 (ix2 r q)) + b (ix1 q)) * x (ix2 r q)

/-- The whole array the second kernel leaves. -/
def OUT (seg h2 : S50000x128.Idx → EReal) (dv : S50000x1.Idx → EReal) (b : S128.Idx → EReal) (x : S50000x128.Idx → EReal) :
    S50000x128.Idx → EReal := fun i => outAt seg h2 dv b x (i 0) (i 1)

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0
    ∧ win1_5.index t (0 : Fin 2) = t.val ∧ win1_5.index t (1 : Fin 2) = 0 ∧ t.val < 25 :=
  (by decide +kernel : ∀ t : Fin grid1.N, _)

theorem idx_onto1 : ∀ q0 : Fin 25, ∃ t : Fin cfg1.N, t.val = q0.val :=
  (by decide +kernel : ∀ q0 : Fin 25, ∃ t : Fin grid1.N, t.val = q0.val)

/-- What point t of the second kernel writes back is block t of OUT of the arrays as the kernel finds them. -/
theorem flushed1 (c : Dev nD) (t : Fin cfg1.N) :
    (dat1 V c).flushed 5 t = ((cfg1.win 5).blk t).view.read (Elt Ideal)
      (OUT (V c main_v28) (V c main_v17) (V c main_v16) (V c main_arg5) (V c main_arg0)) := by
  show (cfg1.win 5).cut (grid1.coords t) ((dat1 V c).after 5 t) = _
  rw [after1_5]
  unfold out1_5
  rw [View.canon_unit_zero hz2]
  simp only [View.ld_unit_zero (S := S2000x128) hz2, View.ld_unit_zero (S := S128) hz1,
    View.ld_unit_zero (S := S2000x1) hz2]
  obtain ⟨e00, e01, e10, e11, e20, e21, e3, e40, e41, e50, e51, ht⟩ := idx_facts1 t
  funext j
  obtain ⟨p, q, rfl⟩ : ∃ (p : Fin 2000) (q : Fin 128), j = ix2 p q := ⟨j 0, j 1, eq_ix2 j⟩
  have hp := p.isLt
  have hq := q.isLt
  have hr : t.val * 2000 + p.val < 50000 := by omega
  have hout : ((cfg1.win 5).blk t).view.emb (ix2 p q) = ix2 (⟨t.val * 2000 + p.val, hr⟩ : Fin 50000) q := by
    funext a; apply Fin.ext
    match a with
    | ⟨0, _⟩ => show win1_5.index t (0 : Fin 2) * 2000 + 1 * p.val = t.val * 2000 + p.val; omega
    | ⟨1, _⟩ => show win1_5.index t (1 : Fin 2) * 128 + 1 * q.val = q.val; omega
  have h0 : iblk1 V c 0 t (ix2 p q) = V c main_v28 (ix2 (⟨t.val * 2000 + p.val, hr⟩ : Fin 50000) q) := by
    show V c main_v28 (((cfg1.win 0).blk t).view.emb (ix2 p q)) = _
    refine congrArg (V c main_v28) (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * q.val = q.val; omega
  have h1 : iblk1 V c 1 t (ix2 p q) = V c main_v17 (ix2 (⟨t.val * 2000 + p.val, hr⟩ : Fin 50000) q) := by
    show V c main_v17 (((cfg1.win 1).blk t).view.emb (ix2 p q)) = _
    refine congrArg (V c main_v17) (funext fun a => Fin.ext ?_)
    match a with
    | ⟨0, _⟩ => show win1_1.index t (0 : Fin 2) * 2000 + 1 * p.val = t.val * 2000 + p.val; omega
    | ⟨1, _⟩ => show win1_1.index t (1 : Fin 2) * 128 + 1 * q.val = q.val; omega
  have h2 : iblk1 V c 2 t (ix2 p (0 : Fin 1)) = V c main_v16 (ix2 (⟨t.val * 2000 + p.val, hr⟩ : Fin 50000) (0 : Fin 1)) := by
    show V c main_v16 (((cfg1.win 2).blk t).view.emb (ix2 p (0 : Fin 1))) = _
    refine congrArg (V c main_v16) (funext fun a => Fin.ext ?_)
    match a with
    | ⟨0, _⟩ => show win1_2.index t (0 : Fin 2) * 2000 + 1 * p.val = t.val * 2000 + p.val; omega
    | ⟨1, _⟩ => show win1_2.index t (1 : Fin 2) * 1 + 1 * 0 = 0; omega
  have h3 : iblk1 V c 3 t (ix1 q) = V c main_arg5 (ix1 q) := by
    show V c main_arg5 (((cfg1.win 3).blk t).view.emb (ix1 q)) = _
    refine congrArg (V c main_arg5) (funext fun a => Fin.ext ?_)
    match a with
    | ⟨0, _⟩ => show win1_3.index t (0 : Fin 1) * 128 + 1 * q.val = q.val; omega
  have h4 : iblk1 V c 4 t (ix2 p q) = V c main_arg0 (ix2 (⟨t.val * 2000 + p.val, hr⟩ : Fin 50000) q) := by
    show V c main_arg0 (((cfg1.win 4).blk t).view.emb (ix2 p q)) = _
    refine congrArg (V c main_arg0) (funext fun a => Fin.ext ?_)
    match a with
    | ⟨0, _⟩ => show win1_4.index t (0 : Fin 2) * 2000 + 1 * p.val = t.val * 2000 + p.val; omega
    | ⟨1, _⟩ => show win1_4.index t (1 : Fin 2) * 128 + 1 * q.val = q.val; omega
  refine (Pay.k1_pay1_apply (iblk1 V c 2 t) (iblk1 V c 1 t) (iblk1 V c 0 t) (iblk1 V c 3 t) (iblk1 V c 4 t) p q).trans ?_
  rw [View.read_apply, hout]
  show _ = outAt (V c main_v28) (V c main_v17) (V c main_v16) (V c main_arg5) (V c main_arg0) ⟨t.val * 2000 + p.val, hr⟩ q
  unfold outAt
  rw [h0, h1, h2, h3, h4]

theorem mem_blk1 (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v29).slice (win1_5.rect t)).set ↔ _
  rw [View.set_slice_whole, Rect.mem_set_unit]
  exact Iff.rfl

theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto1 ⟨(i 0).val / 2000, by omega⟩
  obtain ⟨e00, e01, e10, e11, e20, e21, e3, e40, e41, e50, e51, ht'⟩ := idx_facts1 t
  have ht2 : t.val = (i 0).val / 2000 := ht
  refine ⟨t, flush1_5 t, ?_⟩
  rw [mem_blk1]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 128 ≤ (i 1).val ∧ (i 1).val < win1_5.index t (1 : Fin 2) * 128 + 128
    omega

/-- The array the second kernel leaves. -/
theorem final1 (c : Dev nD) : (dat1 V c).arrAt 5 cfg1.N
    = OUT (V c main_v28) (V c main_v17) (V c main_v16) (V c main_arg5) (V c main_arg0) :=
  (dat1 V c).arrAt_eq_of_cover 5 _ (fun t _ => flushed1 V c t) cover1

end Cert.KernelIdeal.Blocks

end
-- ==== Proof.KHost.lean ====
/-
  The host operations around the two kernels, read as functions of the argument arrays.

  Before the first kernel the host cuts the edge list into its source and target rows, counts each node's incoming
  edges by an accumulating scatter of ones, adds the doubled self loop, and takes the normalising factor
  rsqrt(max(deg, tiny)) (0 where the degree is not positive), stood up as a column. Between the kernels it gathers the
  pre-scaled rows at the (wrapped) sources and scatters them, accumulating, at the targets. Each buffer a kernel reads
  is one of these terms, or an argument, or the first kernel's result.
-/
import proofs.«114811_j35897336660176_2_alg».proof.Proof.KBlocks
import Idealize.ShloMosaic.Lib.StableHlo.Run

set_option maxRecDepth 16384
set_option maxHeartbeats 4000000

noncomputable section

namespace Cert.KernelIdeal.HostSide

open Cert.KernelIdeal Cert.KernelIdeal.Gen Idealize.ShloMosaic Idealize.ShloMosaic.TcCoe Idealize.SL.Sem
open Idealize.ShloMosaic.StableHlo Cert.KernelIdeal.Blocks

/-! ## The host's terms -/

/-- The sources of the edges. -/
def rowK (ei : S2x800000.Idx → BitVec 32) : S800000.Idx → BitVec 32 :=
  shapeCast S800000 (extractStridedSlice S1x800000 ![0, 0] ei slices_S2x800000_S1x800000_0_0) shapeCasts_S1x800000_S800000

/-- The targets of the edges. -/
def colK (ei : S2x800000.Idx → BitVec 32) : S800000.Idx → BitVec 32 :=
  shapeCast S800000 (extractStridedSlice S1x800000 ![1, 0] ei slices_S2x800000_S1x800000_1_0) shapeCasts_S1x800000_S800000

/-- The degrees: the incoming edges counted, plus the doubled self loop. -/
def degK (ei : S2x800000.Idx → BitVec 32) : FVec Ideal S50000 .f32 :=
  addf (Host.scatterAdd scatter_S50000_S800000x1_S800000_n_0_0_1
      (broadcastInDim S50000 ![] bcast_S_S50000 (constant (F := Ideal) S_ .f32 0x00000000#32))
      (broadcastInDim S800000x1 ![0] bcast_S800000_S800000x1_0 (colK ei))
      (broadcastInDim S800000 ![] bcast_S_S800000 (constant (F := Ideal) S_ .f32 0x3F800000#32)))
    (broadcastInDim S50000 ![] bcast_S_S50000 (constant (F := Ideal) S_ .f32 0x40000000#32))

/-- The normalising factors. -/
def dinvK (ei : S2x800000.Idx → BitVec 32) : FVec Ideal S50000 .f32 :=
  select (cmpf .ogt (degK ei) (broadcastInDim S50000 ![] bcast_S_S50000 (constant (F := Ideal) S_ .f32 0x00000000#32)))
    (Host.rsqrt (maximumf (degK ei) (broadcastInDim S50000 ![] bcast_S_S50000 (constant (F := Ideal) S_ .f32 0x2B8CBCCC#32))))
    (broadcastInDim S50000 ![] bcast_S_S50000 (id (constant (F := Ideal) S_ .f32 0x00000000#32)))

/-- The normalising factors as a column. -/
def dvK (ei : S2x800000.Idx → BitVec 32) : FVec Ideal S50000x1 .f32 :=
  shapeCast S50000x1 (dinvK ei) shapeCasts_S50000_S50000x1

/-- The summed incoming rows: the rows of h2 gathered at the wrapped sources, scattered at the targets. -/
def segK (ei : S2x800000.Idx → BitVec 32) (h2 : S50000x128.Idx → EReal) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 (colK ei))
    (extf .f32
      (Host.gather gather_S50000x128_S800000x1_S800000x128_1_0_n_n_0_1_1128 (h2 : FVec Ideal S50000x128 .bf16)
        (broadcastInDim S800000x1 ![0] bcast_S800000_S800000x1_0
          (select
            (cmpi .slt (rowK ei) (broadcastInDim S800000 ![] bcast_S_S800000 (constantI S_ 32 0#32)))
            (addi (rowK ei) (broadcastInDim S800000 ![] bcast_S_S800000 (constantI S_ 32 50000#32)))
            (rowK ei))))
      bitsLt_bf16_f32)

variable (m : (ℓ : Loc nD τ sig) → Buf (Elt Ideal) ℓ) (ρ : Dev nD → PrngReg)

/-! ## The buffers at the first kernel's entry -/

theorem W3_arg0 (c : Dev nD) : W3 m ρ c (Proc.devRef .tc main_arg0) = m ((c : Thread nD τ).loc main_arg0) := by
  after_results
theorem W3_arg2 (c : Dev nD) : W3 m ρ c (Proc.devRef .tc main_arg2) = m ((c : Thread nD τ).loc main_arg2) := by
  after_results
theorem W3_arg3 (c : Dev nD) : W3 m ρ c (Proc.devRef .tc main_arg3) = m ((c : Thread nD τ).loc main_arg3) := by
  after_results
theorem W3_arg4 (c : Dev nD) : W3 m ρ c (Proc.devRef .tc main_arg4) = m ((c : Thread nD τ).loc main_arg4) := by
  after_results
theorem W3_arg5 (c : Dev nD) : W3 m ρ c (Proc.devRef .tc main_arg5) = m ((c : Thread nD τ).loc main_arg5) := by
  after_results
theorem W3_v1 (c : Dev nD) : W3 m ρ c (Proc.devRef .tc main_v1) = rowK (m ((c : Thread nD τ).loc main_arg1)) := by
  after_results; rfl
theorem W3_v3 (c : Dev nD) : W3 m ρ c (Proc.devRef .tc main_v3) = colK (m ((c : Thread nD τ).loc main_arg1)) := by
  after_results; rfl
/-- The call of the select helper, from any contents of the buffers it reads. -/
theorem where_result (Wv : Valuation τ sig (Elt Ideal)) :
    StableHlo.after hostOps0_1 Wv (Proc.devRef .tc main_v15)
      = select (Wv (Proc.devRef .tc main_v11) : S50000.Idx → BitVec 1) (Wv (Proc.devRef .tc main_v14) : S50000.Idx → EReal)
          (broadcastInDim S50000 ![] bcast_S_S50000 (id (Wv (Proc.devRef .tc main_cst_4) : S_.Idx → EReal))) := by
  after_results; rfl

/-- The column form of the factors, from any contents of the vector. -/
theorem column_result (Wv : Valuation τ sig (Elt Ideal)) :
    StableHlo.after hostOps0_2 Wv (Proc.devRef .tc main_v16)
      = shapeCast S50000x1 (Wv (Proc.devRef .tc main_v15) : S50000.Idx → EReal) shapeCasts_S50000_S50000x1 := by
  after_results; rfl

set_option maxHeartbeats 1000000 in
theorem W1_v9 (c : Dev nD) : W1 m ρ c (Proc.devRef .tc main_v9) = degK (m ((c : Thread nD τ).loc main_arg1)) := by
  after_results; rfl

set_option maxHeartbeats 1000000 in
theorem W1_v11 (c : Dev nD) : W1 m ρ c (Proc.devRef .tc main_v11)
    = cmpf .ogt (degK (m ((c : Thread nD τ).loc main_arg1)))
        (broadcastInDim S50000 ![] bcast_S_S50000 (constant (F := Ideal) S_ .f32 0x00000000#32)) := by
  after_results; rfl

set_option maxHeartbeats 1000000 in
theorem W1_v14 (c : Dev nD) : W1 m ρ c (Proc.devRef .tc main_v14)
    = Host.rsqrt (maximumf (degK (m ((c : Thread nD τ).loc main_arg1)))
        (broadcastInDim S50000 ![] bcast_S_S50000 (constant (F := Ideal) S_ .f32 0x2B8CBCCC#32))) := by
  after_results; rfl

theorem W1_cst4 (c : Dev nD) : W1 m ρ c (Proc.devRef .tc main_cst_4) = constant (F := Ideal) S_ .f32 0x00000000#32 := by
  after_results

theorem W2_v15 (c : Dev nD) : W2 m ρ c (Proc.devRef .tc main_v15) = dinvK (m ((c : Thread nD τ).loc main_arg1)) := by
  show StableHlo.after hostOps0_1 (W1 m ρ c) (Proc.devRef .tc main_v15) = _
  rw [where_result, W1_v11, W1_v14, W1_cst4]
  rfl

theorem W3_v16 (c : Dev nD) : W3 m ρ c (Proc.devRef .tc main_v16) = dvK (m ((c : Thread nD τ).loc main_arg1)) := by
  show StableHlo.after hostOps0_2 (W2 m ρ c) (Proc.devRef .tc main_v16) = _
  rw [column_result, W2_v15]
  rfl

/-! ## The buffers at the second kernel's entry -/

/-- The first kernel's result: the pre-scaled rows. -/
def h2K (x : S50000x128.Idx → EReal) (ei : S2x800000.Idx → BitVec 32) (g b : S128.Idx → EReal) (W : S128x128.Idx → EReal) :
    S50000x128.Idx → EReal := H2 x g b W (dvK ei)

theorem W4_v17 (c : Dev nD) : W4 m ρ c (Proc.devRef .tc main_v17)
    = h2K (m ((c : Thread nD τ).loc main_arg0)) (m ((c : Thread nD τ).loc main_arg1)) (m ((c : Thread nD τ).loc main_arg2))
        (m ((c : Thread nD τ).loc main_arg3)) (m ((c : Thread nD τ).loc main_arg4)) := by
  refine ((W4_arr m ρ c 5).trans (final0 (V3 m ρ) c)).trans ?_
  show H2 (W3 m ρ c (Proc.devRef .tc main_arg0)) (W3 m ρ c (Proc.devRef .tc main_arg2)) (W3 m ρ c (Proc.devRef .tc main_arg3))
    (W3 m ρ c (Proc.devRef .tc main_arg4)) (W3 m ρ c (Proc.devRef .tc main_v16)) = _
  rw [W3_arg0, W3_arg2, W3_arg3, W3_arg4, W3_v16]
  rfl

theorem W4_v1 (c : Dev nD) : W4 m ρ c (Proc.devRef .tc main_v1) = rowK (m ((c : Thread nD τ).loc main_arg1)) :=
  (W4_of_ne m ρ c main_v1 (by decide)).trans (W3_v1 m ρ c)

theorem W4_v3 (c : Dev nD) : W4 m ρ c (Proc.devRef .tc main_v3) = colK (m ((c : Thread nD τ).loc main_arg1)) :=
  (W4_of_ne m ρ c main_v3 (by decide)).trans (W3_v3 m ρ c)

theorem W5_v28 (c : Dev nD) : W5 m ρ c (Proc.devRef .tc main_v28)
    = segK (m ((c : Thread nD τ).loc main_arg1))
        (h2K (m ((c : Thread nD τ).loc main_arg0)) (m ((c : Thread nD τ).loc main_arg1)) (m ((c : Thread nD τ).loc main_arg2))
          (m ((c : Thread nD τ).loc main_arg3)) (m ((c : Thread nD τ).loc main_arg4))) := by
  show StableHlo.after hostOps1 (W4 m ρ c) (Proc.devRef .tc main_v28) = _
  after_results
  rw [W4_v3, W4_v1, W4_v17]
  rfl

theorem W5_v17 (c : Dev nD) : W5 m ρ c (Proc.devRef .tc main_v17)
    = h2K (m ((c : Thread nD τ).loc main_arg0)) (m ((c : Thread nD τ).loc main_arg1)) (m ((c : Thread nD τ).loc main_arg2))
        (m ((c : Thread nD τ).loc main_arg3)) (m ((c : Thread nD τ).loc main_arg4)) := by
  show StableHlo.after hostOps1 (W4 m ρ c) (Proc.devRef .tc main_v17) = _
  after_results
  exact W4_v17 m ρ c

theorem W5_v16 (c : Dev nD) : W5 m ρ c (Proc.devRef .tc main_v16) = dvK (m ((c : Thread nD τ).loc main_arg1)) := by
  show StableHlo.after hostOps1 (W4 m ρ c) (Proc.devRef .tc main_v16) = _
  after_results
  exact ((W4_arr m ρ c 4).trans (((dat0 (V3 m ρ) c).arrAt_in 4 rfl _).trans (A_eq0 (V3 m ρ) c 4))).trans (W3_v16 m ρ c)

theorem W5_arg5 (c : Dev nD) : W5 m ρ c (Proc.devRef .tc main_arg5) = m ((c : Thread nD τ).loc main_arg5) := by
  show StableHlo.after hostOps1 (W4 m ρ c) (Proc.devRef .tc main_arg5) = _
  after_results
  exact (W4_of_ne m ρ c main_arg5 (by decide)).trans (W3_arg5 m ρ c)

theorem W5_arg0 (c : Dev nD) : W5 m ρ c (Proc.devRef .tc main_arg0) = m ((c : Thread nD τ).loc main_arg0) := by
  show StableHlo.after hostOps1 (W4 m ρ c) (Proc.devRef .tc main_arg0) = _
  after_results
  exact ((W4_arr m ρ c 0).trans (((dat0 (V3 m ρ) c).arrAt_in 0 rfl _).trans (A_eq0 (V3 m ρ) c 0))).trans (W3_arg0 m ρ c)

/-! ## The result -/

/-- The whole result array as a function of the argument arrays. -/
def outK (x : S50000x128.Idx → EReal) (ei : S2x800000.Idx → BitVec 32) (g b : S128.Idx → EReal) (W : S128x128.Idx → EReal)
    (bias : S128.Idx → EReal) : S50000x128.Idx → EReal :=
  OUT (segK ei (h2K x ei g b W)) (h2K x ei g b W) (dvK ei) bias x

/-- What the result buffer holds after the run. -/
theorem result (c : Dev nD) : W6 m ρ c (Proc.devRef .tc main_v29)
    = outK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine ((W6_arr m ρ c 5).trans (final1 (V5 m ρ) c)).trans ?_
  show OUT (W5 m ρ c (Proc.devRef .tc main_v28)) (W5 m ρ c (Proc.devRef .tc main_v17)) (W5 m ρ c (Proc.devRef .tc main_v16))
    (W5 m ρ c (Proc.devRef .tc main_arg5)) (W5 m ρ c (Proc.devRef .tc main_arg0)) = _
  rw [W5_v28, W5_v17, W5_v16, W5_arg5, W5_arg0]
  rfl

end Cert.KernelIdeal.HostSide

end
-- ==== Proof.LibScaledSums.lean ====
/-
  General lemmas on finite sums of extended reals, used where a mean is taken in one step or in two.

  A sum over the index set of a rank-3 array is the triple sum over its coordinates. Multiplication by a real
  constant that is not negative distributes over a finite sum of extended reals, at the infinities too. Hence
  dividing each term of a sum by a positive real c and the sum by a positive real d is dividing the sum of the
  terms by c · d, with no finiteness hypothesis on the terms.
-/
import Idealize.ShloMosaic.PureOps.Ideal
import Idealize.ShloMosaic.Lib.ValueIdx

noncomputable section

open scoped BigOperators

namespace Cert.LibScaledSums

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- When the last axis has extent one the innermost sum is its one term. -/
theorem sum_idx3_unit {M : Type*} [AddCommMonoid M] {n0 n1 : Nat} (f : (⟨3, ![n0, n1, 1]⟩ : Shape).Idx → M) :
    ∑ i, f i = ∑ a : Fin n0, ∑ b : Fin n1, f (ix3 a b (0 : Fin 1)) := by
  rw [sum_idx3]
  refine Finset.sum_congr rfl fun a _ => Finset.sum_congr rfl fun b _ => ?_
  exact Fin.sum_univ_one _

/-- Multiplying a finite sum of extended reals by a real constant that is not negative multiplies each term. -/
theorem sum_mul_coe_of_nonneg {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- Each term divided by a positive real c, the sum then divided by a positive real d: the sum of the terms
    divided by c · d. -/
theorem div_sum_div {ι : Type*} (s : Finset ι) (f : ι → EReal) {c d : ℝ} (hc : 0 < c) (hd : 0 < d) :
    Ideal.div (∑ i ∈ s, Ideal.div (f i) (c : EReal)) (d : EReal)
      = Ideal.div (∑ i ∈ s, f i) ((c * d : ℝ) : EReal) := by
  rw [Ideal.div_coe hd.ne', Ideal.div_coe (mul_pos hc hd).ne']
  have h : ∀ i ∈ s, Ideal.div (f i) (c : EReal) = f i * ((1 / c : ℝ) : EReal) :=
    fun i _ => Ideal.div_coe hc.ne' (f i)
  rw [Finset.sum_congr rfl h, ← sum_mul_coe_of_nonneg s f (one_div_nonneg.mpr hc.le), mul_assoc,
    ← EReal.coe_mul, one_div_mul_one_div]

end Cert.LibScaledSums

end
-- ==== Proof.LibRealSums.lean ====
/-
  Real numbers inside the extended reals: finite sums, closure of "is a real number" under the
  arithmetic a normalisation layer uses, and the identity between the two forms of a variance.

  An extended real is "a real" when it is the image of some real number. Sums, differences, products, maxima,
  finite sums, quotients by a nonzero real and reciprocal square roots of positive reals keep that property,
  and on such values every operation is the image of the operation on real numbers. The variance law

      (∑ z²)/c − ((∑ z)/c)²  =  (∑ (z − (∑ z)/c)²)/c          (c the number of terms)

  holds for real numbers; its right-hand side is a mean of squares, so it is nonnegative and clamping the
  left-hand side at zero changes nothing. Carried to the extended reals it holds for columns of real entries.
-/
import Idealize.ShloMosaic.PureOps.Ideal
import Mathlib.Tactic

noncomputable section

namespace Cert.RealSums

open Idealize.ShloMosaic

/-- A finite sum of real numbers, taken in the extended reals, is the image of the real sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The larger of two real numbers, taken in the extended reals, is the image of the real maximum. -/
theorem coe_max (r s : ℝ) : max (r : EReal) (s : EReal) = ((max r s : ℝ) : EReal) := by
  rcases le_total r s with h | h
  · rw [max_eq_right h, max_eq_right (EReal.coe_le_coe_iff.mpr h)]
  · rw [max_eq_left h, max_eq_left (EReal.coe_le_coe_iff.mpr h)]

/-- The sum of two reals is a real. -/
theorem isReal_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

/-- The difference of two reals is a real. -/
theorem isReal_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

/-- The product of two reals is a real. -/
theorem isReal_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

/-- The larger of two reals is a real. -/
theorem isReal_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; exact ⟨max r s, coe_max r s⟩

/-- Zero is a real. -/
theorem isReal_zero : ∃ r : ℝ, (0 : EReal) = (r : EReal) := ⟨0, EReal.coe_zero.symm⟩

/-- A finite sum of reals is a real. -/
theorem isReal_sum {ι : Type*} (s : Finset ι) {f : ι → EReal} (hf : ∀ i, ∃ r : ℝ, f i = (r : EReal)) :
    ∃ r : ℝ, ∑ i ∈ s, f i = (r : EReal) := by
  choose g hg using hf
  exact ⟨∑ i ∈ s, g i, by rw [← coe_finset_sum]; exact Finset.sum_congr rfl (fun i _ => hg i)⟩

/-- The quotient of a real by a nonzero real is a real: the product with the reciprocal. -/
theorem div_coe_coe (r : ℝ) {c : ℝ} (hc : c ≠ 0) : Ideal.div (r : EReal) (c : EReal) = ((r / c : ℝ) : EReal) := by
  rw [Ideal.div_coe hc, ← EReal.coe_mul, mul_one_div]

/-- The quotient of a real by a nonzero real is a real. -/
theorem isReal_div {a : EReal} {c : ℝ} (ha : ∃ r : ℝ, a = (r : EReal)) (hc : c ≠ 0) :
    ∃ r : ℝ, Ideal.div a (c : EReal) = (r : EReal) := by
  obtain ⟨r, rfl⟩ := ha; exact ⟨r / c, div_coe_coe r hc⟩

/-- The reciprocal square root of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The reciprocal square root of a positive real is a real. -/
theorem isReal_rsqrt {a : EReal} (ha : ∃ r : ℝ, 0 < r ∧ a = (r : EReal)) : ∃ s : ℝ, Ideal.rsqrt a = (s : EReal) := by
  obtain ⟨r, hr, rfl⟩ := ha; exact ⟨(Real.sqrt r)⁻¹, rsqrt_coe_pos hr⟩

/-- The variance law on real numbers: with `c` the number of terms, the mean of the squares minus the square of
    the mean is the mean of the squared deviations from the mean. -/
theorem real_var_law {ι : Type*} [Fintype ι] (z : ι → ℝ) (c : ℝ) (hc : (Fintype.card ι : ℝ) = c) (hc0 : c ≠ 0) :
    (∑ i, z i * z i) / c - (∑ i, z i) / c * ((∑ i, z i) / c)
      = (∑ i, (z i - (∑ i, z i) / c) * (z i - (∑ i, z i) / c)) / c := by
  set μ : ℝ := (∑ i, z i) / c with hμ
  have hs : ∑ i, z i = c * μ := by rw [hμ]; field_simp
  have hdev : ∑ i, (z i - μ) * (z i - μ) = ∑ i, z i * z i - 2 * μ * ∑ i, z i + c * (μ * μ) := by
    have h : ∀ i, (z i - μ) * (z i - μ) = z i * z i - 2 * μ * z i + μ * μ := fun i => by ring
    simp only [h, Finset.sum_add_distrib, Finset.sum_sub_distrib, ← Finset.mul_sum, Finset.sum_const,
      Finset.card_univ, nsmul_eq_mul, hc]
    ring
  rw [hdev, hs]
  field_simp
  ring

/-- The mean of the squared deviations of real numbers is nonnegative (`c` positive). -/
theorem real_var_nonneg {ι : Type*} [Fintype ι] (z : ι → ℝ) (m c : ℝ) (hc : 0 < c) :
    0 ≤ (∑ i, (z i - m) * (z i - m)) / c :=
  div_nonneg (Finset.sum_nonneg (fun i _ => mul_self_nonneg (z i - m))) hc.le

/-- The variance law on the extended reals, for real entries: the mean of the squares minus the square of the
    mean, clamped at zero, is the mean of the squared deviations from the mean. `c` is the number of terms. -/
theorem var_law {ι : Type*} [Fintype ι] (z : ι → EReal) (hz : ∀ i, ∃ r : ℝ, z i = (r : EReal))
    (c : ℝ) (hc : (Fintype.card ι : ℝ) = c) (hpos : 0 < c) :
    max (Ideal.div (∑ i, z i * z i) (c : EReal)
          - Ideal.div (∑ i, z i) (c : EReal) * Ideal.div (∑ i, z i) (c : EReal)) 0
      = Ideal.div (∑ i, (z i - Ideal.div (∑ i, z i) (c : EReal)) * (z i - Ideal.div (∑ i, z i) (c : EReal)))
          (c : EReal) := by
  choose w hw using hz
  obtain rfl : z = fun i => (w i : EReal) := funext hw
  have hc0 : c ≠ 0 := hpos.ne'
  simp only [← EReal.coe_mul, coe_finset_sum, div_coe_coe _ hc0, ← EReal.coe_sub]
  rw [← EReal.coe_zero, coe_max, real_var_law w c hc hc0, max_eq_left (real_var_nonneg w _ c hpos)]

/-- The mean of the squared deviations of real entries is a nonnegative real. -/
theorem var_isReal_nonneg {ι : Type*} [Fintype ι] (z : ι → EReal) (hz : ∀ i, ∃ r : ℝ, z i = (r : EReal))
    (c : ℝ) (hpos : 0 < c) :
    ∃ v : ℝ, 0 ≤ v ∧
      Ideal.div (∑ i, (z i - Ideal.div (∑ i, z i) (c : EReal)) * (z i - Ideal.div (∑ i, z i) (c : EReal)))
          (c : EReal) = (v : EReal) := by
  choose w hw using hz
  obtain rfl : z = fun i => (w i : EReal) := funext hw
  have hc0 : c ≠ 0 := hpos.ne'
  simp only [← EReal.coe_mul, coe_finset_sum, div_coe_coe _ hc0, ← EReal.coe_sub]
  exact ⟨_, real_var_nonneg w _ c hpos, rfl⟩

/-- Regrouping a sum by tiles. The index range `T * B` is cut into `T` tiles of `B` consecutive terms; a second
    family `g` over `T * R` indices (`T` groups of `R`) carries, at the first index of group `t`, the sum of
    tile `t`, and zero elsewhere. Then `g` and `f` have the same total: addition on the extended reals is
    commutative and associative, so no finiteness is needed. -/
theorem sum_tilePartials_of (T B R : ℕ) (hR : 0 < R) (f : Fin (T * B) → EReal) (g : Fin (T * R) → EReal)
    (hb : ∀ (r : Fin (T * R)) (p : Fin B), B * (r.val / R) + p.val < T * B)
    (hg : ∀ r : Fin (T * R), g r
      = if r.val % R = 0 then ∑ p : Fin B, f ⟨B * (r.val / R) + p.val, hb r p⟩ else 0) :
    ∑ r, g r = ∑ i, f i := by
  classical
  rw [← (finProdFinEquiv : Fin T × Fin R ≃ Fin (T * R)).sum_comp g,
    ← (finProdFinEquiv : Fin T × Fin B ≃ Fin (T * B)).sum_comp f, Fintype.sum_prod_type, Fintype.sum_prod_type]
  refine Finset.sum_congr rfl (fun t _ => ?_)
  rw [Finset.sum_eq_single (⟨0, hR⟩ : Fin R)]
  · rw [hg]
    have h0 : (finProdFinEquiv (t, (⟨0, hR⟩ : Fin R))).val = R * t := by
      rw [finProdFinEquiv_apply_val]; simp
    rw [if_pos (by rw [h0]; exact Nat.mul_mod_right R t)]
    refine Finset.sum_congr rfl (fun p _ => ?_)
    congr 1
    apply Fin.ext
    simp only [finProdFinEquiv_apply_val]
    rw [Nat.zero_add, Nat.mul_div_cancel_left _ hR, Nat.add_comm]
  · intro k _ hk
    rw [hg, if_neg]
    simp only [finProdFinEquiv_apply_val]
    rw [Nat.add_mul_mod_self_left, Nat.mod_eq_of_lt k.isLt]
    intro h
    exact hk (Fin.ext h)
  · intro h
    exact absurd (Finset.mem_univ _) h

/-- The regrouping for 100000 terms in 20 tiles of 5000, the partial sums sitting at every eighth of 160 indices. -/
theorem sum_tilePartials (f : Fin 100000 → EReal) (g : Fin 160 → EReal)
    (hg : ∀ r : Fin 160, g r = if r.val % 8 = 0 then ∑ p : Fin 5000, f ⟨5000 * (r.val / 8) + p.val, by have := r.isLt; have := p.isLt; omega⟩ else 0) :
    ∑ r, g r = ∑ i, f i :=
  sum_tilePartials_of 20 5000 8 (by norm_num) f g (fun r p => by have := r.isLt; have := p.isLt; omega) hg

end Cert.RealSums

end
-- ==== Proof.GcnLaw.lean ====
/-
  The algebra that joins the two arrangements of a symmetric-normalised graph convolution with doubled self loops.

  With c the destination's normalising factor, the reference adds, over the incoming edges e and the self loop,
  h(src e) · ((d(src e) · 1) · c) and h(self) · ((c · 2) · c); the other arrangement scales the rows first,
  h2 = h · d, adds the incoming rows of h2, multiplies the sum by c once, and adds (2 · c) · h2(self). The two agree
  on the extended reals whenever c is a real that is not negative — multiplication by such a c distributes over
  any finite sum — and the normalising factor rsqrt(max(deg, tiny)) (or 0) is such a real whatever deg is, because
  tiny is a positive real.
-/
import Idealize.ShloMosaic.PureOps.Ideal
import Idealize.ShloMosaic.PureOps.Ideal.Laws
import Idealize.ShloMosaic.Lib.ValueIdx
import proofs.«114811_j35897336660176_2_alg».proof.Proof.LibScaledSums
import proofs.«114811_j35897336660176_2_alg».proof.Proof.LibRealSums

noncomputable section

open scoped BigOperators

namespace Cert.GcnLaw

open Idealize.ShloMosaic

/-- The word of 1.0 denotes 1. -/
theorem ofBits_one : Ideal.ofBits .f32 0x3F800000#32 = 1 := by
  simp [Ideal.ofBits, Ideal.ieee, -EReal.coe_mul]; norm_num

/-- The word of 1e-12 denotes a positive real. -/
theorem tiny_pos : ∃ t : ℝ, 0 < t ∧ Ideal.ofBits .f32 0x2B8CBCCC#32 = (t : EReal) := by
  have h : Ideal.ofBits .f32 0x2B8CBCCC#32 = (((9223372 : ℝ) * (2 : ℝ) ^ (-63 : ℤ) : ℝ) : EReal) := by
    simp [Ideal.ofBits, Ideal.ieee, -EReal.coe_mul]
  exact ⟨_, by positivity, h⟩

/-- The normalising factor as both programs compute it from a degree. -/
def dinvOf (deg : EReal) : EReal :=
  Scalar.select (Ideal.cmp .ogt deg (Ideal.ofBits .f32 0x00000000#32))
    (Ideal.rsqrt (max deg (Ideal.ofBits .f32 0x2B8CBCCC#32))) (Ideal.ofBits .f32 0x00000000#32)

/-- Whatever the degree, the normalising factor is a real that is not negative. -/
theorem dinvOf_nonneg_real (deg : EReal) : ∃ c : ℝ, 0 ≤ c ∧ dinvOf deg = (c : EReal) := by
  unfold dinvOf Scalar.select
  split
  · obtain ⟨t, ht, e⟩ := tiny_pos
    rw [e]
    induction deg using EReal.rec with
    | bot =>
      rw [max_eq_right bot_le, Cert.RealSums.rsqrt_coe_pos ht]
      exact ⟨_, inv_nonneg.mpr (Real.sqrt_nonneg t), rfl⟩
    | coe r =>
      rw [Cert.RealSums.coe_max, Cert.RealSums.rsqrt_coe_pos (lt_max_of_lt_right ht)]
      exact ⟨_, inv_nonneg.mpr (Real.sqrt_nonneg _), rfl⟩
    | top =>
      rw [max_eq_left le_top]
      exact ⟨0, le_rfl, rfl⟩
  · exact ⟨0, le_rfl, by rw [Ideal.ofBits_zero_f32]; rfl⟩

/-- Multiplying a finite sum of extended reals from the left by a real that is not negative. -/
theorem coe_mul_sum {ι : Type*} (s : Finset ι) (f : ι → EReal) {c : ℝ} (hc : 0 ≤ c) :
    (c : EReal) * (∑ i ∈ s, f i) = ∑ i ∈ s, (c : EReal) * f i := by
  rw [mul_comm, Cert.LibScaledSums.sum_mul_coe_of_nonneg s f hc]
  exact Finset.sum_congr rfl fun i _ => mul_comm _ _

/-- THE LAW. Left: the sum of the pre-scaled incoming rows times c, plus the self loop on the pre-scaled row, plus
    the bias. Right: the reference's sum of rows times their edge weights, self loop included, plus the bias. -/
theorem agg_law {ι : Type*} [Fintype ι] (P : ι → Prop) [DecidablePred P] (f d : ι → EReal) (h c two bq : EReal)
    (hc : ∃ r : ℝ, 0 ≤ r ∧ c = (r : EReal)) :
    (c * (Ideal.ofBits .f32 0x00000000#32 + ∑ e, if P e then f e * d e else 0) + (two * c) * (h * c)) + bq
      = (Ideal.ofBits .f32 0x00000000#32
          + ((∑ e, if P e then f e * ((d e * Ideal.ofBits .f32 0x3F800000#32) * c) else 0) + h * ((c * two) * c))) + bq := by
  obtain ⟨r, hr, rfl⟩ := hc
  rw [Ideal.ofBits_zero_f32, ofBits_one, zero_add, zero_add, coe_mul_sum _ _ hr]
  have h1 : ∀ e, (r : EReal) * (if P e then f e * d e else 0)
      = if P e then f e * ((d e * 1) * (r : EReal)) else 0 := by
    intro e; split
    · rw [mul_one]; ac_rfl
    · exact mul_zero _
  rw [Finset.sum_congr rfl (fun e _ => h1 e)]
  have h2 : (two * (r : EReal)) * (h * (r : EReal)) = h * (((r : EReal) * two) * (r : EReal)) := by ac_rfl
  rw [h2]

end Cert.GcnLaw

end
-- ==== Proof.LibSums.lean ====
/-
  General lemmas on finite sums used by this unit's algebra: the coercion of a sum of naturals into the extended
  reals, splitting a sum over `Fin N` when `N` is a product or a sum, a sum of 32-bit words that does not wrap read as
  a sum of naturals, and the host's integer sum-reduction into a one-element result as the sum of its operand.
  Everything is stated over arbitrary index types or sizes, so that using it is a rewrite and never an enumeration.
-/
import Idealize.ShloMosaic.PureOps.Ideal
import Idealize.ShloMosaic.PureOps.Reduce
import Mathlib.Data.BitVec
import Mathlib.Algebra.BigOperators.Fin
import Mathlib.Algebra.Order.BigOperators.Group.Finset

namespace Cert.LibSums

open Idealize.ShloMosaic

/-- The extended real of a sum of naturals is the sum of their extended reals. -/
theorem coe_nat_sum {ι : Type} (s : Finset ι) (f : ι → ℕ) :
    (((∑ i ∈ s, f i : ℕ) : ℝ) : EReal) = ∑ i ∈ s, (((f i : ℕ) : ℝ) : EReal) := by
  classical
  induction s using Finset.induction_on with
  | empty => simp
  | insert a s ha ih => rw [Finset.sum_insert ha, Finset.sum_insert ha, Nat.cast_add, EReal.coe_add, ih]

/-- A sum over `Fin N` with `N = m * n` is the double sum over quotient and remainder. -/
theorem sum_fin_mul {M : Type} [AddCommMonoid M] {N : ℕ} (m n : ℕ) (h : N = m * n) (g : Fin N → M) :
    ∑ i : Fin N, g i = ∑ a : Fin m, ∑ b : Fin n,
      g ⟨b.val + n * a.val, by subst h; exact (finProdFinEquiv (a, b)).isLt⟩ := by
  subst h
  rw [← finProdFinEquiv.sum_comp, Fintype.sum_prod_type]
  rfl

/-- A sum over `Fin N` with `N = m + n` is the sum over the first `m` plus the sum over the last `n`. -/
theorem sum_fin_add {M : Type} [AddCommMonoid M] {N : ℕ} (m n : ℕ) (h : N = m + n) (g : Fin N → M) :
    ∑ i : Fin N, g i = ∑ a : Fin m, g ⟨a.val, by have := a.isLt; omega⟩
      + ∑ b : Fin n, g ⟨m + b.val, by have := b.isLt; omega⟩ := by
  subst h
  rw [Fin.sum_univ_add]
  rfl

/-- A sum of 32-bit words whose values, read as naturals, add up to less than 2³² is that natural. -/
theorem toNat_sum_eq {ι : Type} (s : Finset ι) (f : ι → BitVec 32) (n : ι → ℕ)
    (hf : ∀ i ∈ s, (f i).toNat = n i) (hb : ∑ i ∈ s, n i < 2 ^ 32) : (∑ i ∈ s, f i).toNat = ∑ i ∈ s, n i := by
  classical
  induction s using Finset.induction_on with
  | empty => simp
  | insert a s ha ih =>
    rw [Finset.sum_insert ha] at hb ⊢
    rw [Finset.sum_insert ha, BitVec.toNat_add, hf a (Finset.mem_insert_self a s),
      ih (fun i hi => hf i (Finset.mem_insert_of_mem hi)) (by omega)]
    exact Nat.mod_eq_of_lt hb

/-- A 32-bit word below 2³¹ read signed is the word read as a natural. -/
theorem toInt_eq_toNat_of_lt (w : BitVec 32) (h : w.toNat < 2 ^ 31) : w.toInt = (w.toNat : Int) := by
  rw [BitVec.toInt_eq_toNat_cond, if_pos (by omega)]

/-- Folding word addition from `init` over a finite set is `init` plus the sum. -/
theorem fold_addi_eq_sum {ι : Type} (s : Finset ι) (init : BitVec 32) (v : ι → BitVec 32) :
    s.fold IntOp.addi init v = init + ∑ i ∈ s, v i := by
  induction s using Finset.cons_induction with
  | empty => simp
  | cons a S ha ih =>
    rw [Finset.fold_cons, Finset.sum_cons, ih]
    exact add_left_comm _ _ _

end Cert.LibSums
-- ==== Proof.EdgeIdx.lean ====
/-
  The edge list and its index words, read at an entry.

  The 2 × E edge list is cut into its source row and its target row; index words that jnp-style indexing uses are
  first wrapped (a negative word has the extent added) and then, by the gather, read signed and clamped into range.
  A word whose signed value is already a row number p is left alone by both: its clamped wrap is p. The words of an
  iota are their positions.
-/
import Idealize.ShloMosaic.Lib.Pipeline.Value
import Idealize.ShloMosaic.Lib.ValueIdx
import proofs.«114811_j35897336660176_2_alg».proof.Proof.LibSums

noncomputable section

namespace Cert.EdgeIdx

open Idealize.ShloMosaic Idealize.ShloMosaic.ValueIdx

variable {α : Type}

/-- The first row of the edge list, as a vector: entry e is the list's (0, e). -/
theorem edgeRow0_apply (ei : (⟨2, ![2, 800000]⟩ : Shape).Idx → α)
    (hs : (⟨2, ![2, 800000]⟩ : Shape).Slices ![0, 0] ⟨2, ![1, 800000]⟩)
    (hc : (⟨2, ![1, 800000]⟩ : Shape).ShapeCasts ⟨1, ![800000]⟩) (e : Fin 800000) :
    shapeCast ⟨1, ![800000]⟩ (extractStridedSlice ⟨2, ![1, 800000]⟩ ![0, 0] ei hs) hc (ix1 e) = ei (ix2 (0 : Fin 2) e) := by
  rw [shapeCast_apply _ hc (ix1 e) (ix2 (0 : Fin 1) e) (by
    rw [Shape.rowMajor_val_two, Shape.rowMajor_val_one]; show 0 * 800000 + e.val = e.val; omega)]
  exact extractStridedSlice_apply _ ei hs (ix2 (0 : Fin 1) e) (ix2 (0 : Fin 2) e) (fun a => by
    match a with
    | ⟨0, _⟩ => rfl
    | ⟨1, _⟩ => show e.val = 0 + e.val; omega)

/-- The second row of the edge list, as a vector: entry e is the list's (1, e). -/
theorem edgeRow1_apply (ei : (⟨2, ![2, 800000]⟩ : Shape).Idx → α)
    (hs : (⟨2, ![2, 800000]⟩ : Shape).Slices ![1, 0] ⟨2, ![1, 800000]⟩)
    (hc : (⟨2, ![1, 800000]⟩ : Shape).ShapeCasts ⟨1, ![800000]⟩) (e : Fin 800000) :
    shapeCast ⟨1, ![800000]⟩ (extractStridedSlice ⟨2, ![1, 800000]⟩ ![1, 0] ei hs) hc (ix1 e) = ei (ix2 (1 : Fin 2) e) := by
  rw [shapeCast_apply _ hc (ix1 e) (ix2 (0 : Fin 1) e) (by
    rw [Shape.rowMajor_val_two, Shape.rowMajor_val_one]; show 0 * 800000 + e.val = e.val; omega)]
  exact extractStridedSlice_apply _ ei hs (ix2 (0 : Fin 1) e) (ix2 (1 : Fin 2) e) (fun a => by
    match a with
    | ⟨0, _⟩ => rfl
    | ⟨1, _⟩ => show e.val = 0 + e.val; omega)

/-- The wrap of an index word: a negative word has the extent 50000 added. -/
def wrapW (v : BitVec 32) : BitVec 32 := Scalar.select (IntOp.cmpi .slt v 0#32) (IntOp.addi v 50000#32) v

/-- The row an index word names after wrapping and clamping into [0, 49999]. -/
def rowOf (v : BitVec 32) : Fin 50000 := ⟨min (wrapW v).toInt.toNat (50000 - 1), by omega⟩

/-- A word that is not negative is its own wrap. -/
theorem wrapW_of_nonneg (v : BitVec 32) (h : 0 ≤ v.toInt) : wrapW v = v := by
  unfold wrapW IntOp.cmpi
  have hs : v.slt 0#32 = false := by
    simp only [BitVec.slt, BitVec.toInt_zero, decide_eq_false_iff_not, not_lt]; exact h
  rw [hs]
  exact select_zero _ _

/-- A word whose signed value is the row number p names row p. -/
theorem rowOf_of_toInt (v : BitVec 32) (p : Fin 50000) (h : v.toInt = (p.val : Int)) : rowOf v = p := by
  apply Fin.ext
  show min (wrapW v).toInt.toNat (50000 - 1) = p.val
  rw [wrapW_of_nonneg v (by omega), h]
  have := p.isLt
  omega

/-- The word of an iota at position j reads j. -/
theorem iota_toInt (j : Fin 50000) : (BitVec.ofNat 32 j.val).toInt = (j.val : Int) := by
  have hj := j.isLt
  have hn : (BitVec.ofNat 32 j.val).toNat = j.val := by
    rw [BitVec.toNat_ofNat]; exact Nat.mod_eq_of_lt (by omega)
  rw [Cert.LibSums.toInt_eq_toNat_of_lt _ (by rw [hn]; omega), hn]

/-- A vector of 800000 entries followed by one of 50000: below 800000 the joined vector reads the first. -/
theorem cat_left (u : (⟨1, ![800000]⟩ : Shape).Idx → α) (v : (⟨1, ![50000]⟩ : Shape).Idx → α)
    (h : Shape.Concatenates [(⟨1, ![800000]⟩ : Shape), ⟨1, ![50000]⟩] ⟨1, ![850000]⟩ 0) (a : Fin 800000)
    (ha : a.val < 850000) :
    concatenate ⟨1, ![850000]⟩ 0 [⟨⟨1, ![800000]⟩, u⟩, ⟨⟨1, ![50000]⟩, v⟩] h (ix1 (⟨a.val, ha⟩ : Fin 850000)) = u (ix1 a) :=
  concatenate_pair_apply_left 0 u v h (ix1 (⟨a.val, ha⟩ : Fin 850000)) rfl (ix1 a) (fun b => by
    match b with
    | ⟨0, _⟩ => rfl)

/-- From 800000 on it reads the second, 800000 positions earlier. -/
theorem cat_right (u : (⟨1, ![800000]⟩ : Shape).Idx → α) (v : (⟨1, ![50000]⟩ : Shape).Idx → α)
    (h : Shape.Concatenates [(⟨1, ![800000]⟩ : Shape), ⟨1, ![50000]⟩] ⟨1, ![850000]⟩ 0) (b : Fin 50000)
    (hb : 800000 + b.val < 850000) :
    concatenate ⟨1, ![850000]⟩ 0 [⟨⟨1, ![800000]⟩, u⟩, ⟨⟨1, ![50000]⟩, v⟩] h (ix1 (⟨800000 + b.val, hb⟩ : Fin 850000)) = v (ix1 b) :=
  concatenate_pair_apply_right 0 u v h (ix1 (⟨800000 + b.val, hb⟩ : Fin 850000)) rfl rfl (ix1 b)
    (fun b' hne => absurd (Subsingleton.elim _ _) hne)
    (by show b.val + 800000 = 800000 + b.val; omega)

end Cert.EdgeIdx

end
-- ==== Proof.GcnSpec.lean ====
/-
  The two arrangements of the aggregation in one vocabulary, and their equality.

  Over the edge list (sources row, targets col, as index words) and a table lin of rows: the degree of node r counts
  the edges whose target is r and adds 2 for the doubled self loop; the normalising factor is dinvOf of the degree.
  The kernel's aggregate at (p, q) sums the pre-scaled rows lin(src) · dinv(src) over the edges into p, multiplies by
  dinv(p), and adds the self loop (2 · dinv(p)) · (lin(p) · dinv(p)) and the bias. The reference's sums
  lin(src) · ((dinv(src) · 1) · dinv(p)) over the edges into p and the self loop lin(p) · ((dinv(p) · 2) · dinv(p)), and
  adds the bias. They are equal by the law of GcnLaw.
-/
import proofs.«114811_j35897336660176_2_alg».proof.Proof.GcnLaw
import proofs.«114811_j35897336660176_2_alg».proof.Proof.EdgeIdx

noncomputable section

open scoped BigOperators

namespace Cert.GcnSpec

open Idealize.ShloMosaic Cert.GcnLaw Cert.EdgeIdx

/-- The degree of node r: its incoming edges counted, plus the doubled self loop. -/
def degN (col : Fin 800000 → BitVec 32) (r : Fin 50000) : EReal :=
  (Ideal.ofBits .f32 0x00000000#32
      + ∑ a : Fin 800000, if (col a).toInt = (r.val : Int) then Ideal.ofBits .f32 0x3F800000#32 else 0)
    + Ideal.ofBits .f32 0x40000000#32

/-- The normalising factor of node r. -/
def dinvN (col : Fin 800000 → BitVec 32) (r : Fin 50000) : EReal := dinvOf (degN col r)

/-- The kernel's aggregate at (p, q). -/
def aggK (lin : Fin 50000 → Fin 128 → EReal) (row col : Fin 800000 → BitVec 32) (bq : EReal) (p : Fin 50000) (q : Fin 128) :
    EReal :=
  (dinvN col p * (Ideal.ofBits .f32 0x00000000#32
        + ∑ a : Fin 800000, if (col a).toInt = (p.val : Int) then lin (rowOf (row a)) q * dinvN col (rowOf (row a)) else 0)
      + (Ideal.ofBits .f32 0x40000000#32 * dinvN col p) * (lin p q * dinvN col p)) + bq

/-- The reference's aggregate at (p, q). -/
def aggR (lin : Fin 50000 → Fin 128 → EReal) (row col : Fin 800000 → BitVec 32) (bq : EReal) (p : Fin 50000) (q : Fin 128) :
    EReal :=
  (Ideal.ofBits .f32 0x00000000#32
      + ((∑ a : Fin 800000, if (col a).toInt = (p.val : Int)
            then lin (rowOf (row a)) q * ((dinvN col (rowOf (row a)) * Ideal.ofBits .f32 0x3F800000#32) * dinvN col p) else 0)
          + lin p q * ((dinvN col p * Ideal.ofBits .f32 0x40000000#32) * dinvN col p))) + bq

/-- The two aggregates are equal. -/
theorem aggK_eq_aggR (lin : Fin 50000 → Fin 128 → EReal) (row col : Fin 800000 → BitVec 32) (bq : EReal)
    (p : Fin 50000) (q : Fin 128) : aggK lin row col bq p q = aggR lin row col bq p q :=
  agg_law (fun a => (col a).toInt = (p.val : Int)) (fun a => lin (rowOf (row a)) q) (fun a => dinvN col (rowOf (row a)))
    (lin p q) (dinvN col p) (Ideal.ofBits .f32 0x40000000#32) bq (dinvOf_nonneg_real _)

end Cert.GcnSpec

end
-- ==== Proof.LibGatherRows.lean ====
/-
  A gather of whole rows, and of single entries, at a column of start indices, read at an index.

  What x[idx] lowers to for an N × D matrix x (or a vector x of N entries) and E integer indices kept as an
  E × 1 column: result row e is the row of x whose number is the index idx[e, 0] read as a signed integer and
  clamped into [0, N − 1].
-/
import Idealize.ShloMosaic.Lib.ValueIdx

noncomputable section

namespace Idealize.ShloMosaic.GatherRows

open Idealize.ShloMosaic Idealize.ShloMosaic.ValueIdx

variable {α : Type}

/-- The dimension numbers of a row gather: operand [N, D], start indices [E, 1], result [E, D]. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Row e, column q of the gathered rows is x at (the clamped index of e, q). -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowDims N D E wf) x idx (ix2 e q)
      = x (ix2 (⟨min (idx (ix2 e (0 : Fin 1))).toInt.toNat (N - 1), by omega⟩ : Fin N) q) := by
  unfold Host.gather
  congr 1
  funext a
  refine Fin.ext ?_
  match a with
  | ⟨0, _⟩ =>
    show (rowDims N D E wf).start (ix2 e q) idx 0 + (rowDims N D E wf).batchCoord (ix2 e q) 0
        + (rowDims N D E wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e q) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N D E wf).start (ix2 e q) idx 1 + (rowDims N D E wf).batchCoord (ix2 e q) 1
        + (rowDims N D E wf).offCoord (ix2 e q) 1 = q.val
    rw [GatherDims.batchCoord_eq_zero _ _ _ List.not_mem_nil]
    have hs : (rowDims N D E wf).start (ix2 e q) idx 1 = 0 := by
      unfold GatherDims.start
      rw [dif_neg (show ¬ (1 : Fin 2) ∈ (rowDims N D E wf).startIndexMap from by
        show ¬ (1 : Fin 2) ∈ ([0] : List (Fin 2)); decide)]
    rw [hs]
    simp only [Nat.add_zero, Nat.zero_add]
    unfold GatherDims.offCoord
    rw [dif_pos (show (1 : Fin 2) ∈ (rowDims N D E wf).sKept from
      (GatherDims.mem_sKept _ _).mpr ⟨by show ¬ (1 : Fin 2) ∈ ([0] : List (Fin 2)); decide, List.not_mem_nil⟩)]
    rfl

/-- The dimension numbers of an entry gather: operand [N], start indices [E, 1], result [E]. -/
abbrev entryDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the gathered entries is x at the clamped index of e. -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (entryDims N E wf).start (ix1 e) idx 0 + (entryDims N E wf).batchCoord (ix1 e) 0
      + (entryDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N E wf).startIndexMap from List.mem_singleton.mpr rfl)]
  have hsi : (entryDims N E wf).siIdx (ix1 e) ⟨List.idxOf (0 : Fin 1) (entryDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Idealize.ShloMosaic.GatherRows

end
-- ==== Proof.LibScatterRows.lean ====
/-
  An accumulating scatter of rows, and of single entries, at a column of indices, read at an index, over the
  extended reals.

  What segment_sum lowers to: E update rows (or E update entries) are added into an N × D matrix (a vector of N
  entries) at the row numbers idx[e, 0], read as signed integers and NOT clamped: an update whose index is outside
  [0, N) is dropped. At (p, q) the result is the operand's entry plus the sum over the updates e of
  (the update's entry (e, q) if idx[e, 0] = p, else 0).
-/
import Idealize.ShloMosaic.Lib.ValueIdx
import Idealize.ShloMosaic.PureOps.Ideal.Laws

noncomputable section

open scoped BigOperators

namespace Idealize.ShloMosaic.ScatterRows

open Idealize.ShloMosaic Idealize.ShloMosaic.ValueIdx

/-- The dimension numbers of a row scatter: operand [N, D], scatter indices [E, 1], updates [E, D]. -/
abbrev rowDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows
variable {N D E w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

theorem row_start0 : (rowDims N D E wf).start (ix2 e q') idx 0 = (idx (ix2 e (0 : Fin 1))).toInt := by
  unfold ScatterDims.start
  rw [dif_pos (show (0 : Fin 2) ∈ (rowDims N D E wf).scatterDimsToOperandDims from List.mem_singleton.mpr rfl)]
  have hsi : (rowDims N D E wf).siIdx (ix2 e q') ⟨List.idxOf (0 : Fin 2) (rowDims N D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem row_start1 : (rowDims N D E wf).start (ix2 e q') idx 1 = 0 := by
  unfold ScatterDims.start
  rw [dif_neg (show ¬ (1 : Fin 2) ∈ (rowDims N D E wf).scatterDimsToOperandDims from by
    show ¬ (1 : Fin 2) ∈ ([0] : List (Fin 2)); decide)]

theorem row_window0 : (rowDims N D E wf).window (ix2 e q') 0 = 0 := by
  unfold ScatterDims.window
  rw [dif_neg (show ¬ (0 : Fin 2) ∈ (rowDims N D E wf).sKept from by
    simp [ScatterDims.sKept, Shape.kept])]

theorem row_window1 : (rowDims N D E wf).window (ix2 e q') 1 = q'.val := by
  unfold ScatterDims.window
  rw [dif_pos (show (1 : Fin 2) ∈ (rowDims N D E wf).sKept from by
    simp [ScatterDims.sKept, Shape.kept])]
  rfl

/-- An update entry (e, q') lands on (p, q) exactly when its row index is p and its column is q. -/
theorem row_resultIdx_iff (p : Fin N) (q : Fin D) :
    (rowDims N D E wf).resultIdx? (ix2 e q') idx = some (ix2 p q)
      ↔ (idx (ix2 e (0 : Fin 1))).toInt = (p.val : Int) ∧ q' = q := by
  unfold ScatterDims.resultIdx?
  constructor
  · intro h
    split at h
    · next hall =>
      have h0 := congrFun (Option.some.inj h) 0
      have h1 := congrFun (Option.some.inj h) 1
      have e0 := congrArg Fin.val h0
      have e1 := congrArg Fin.val h1
      simp only [row_start0, row_start1, row_window0, row_window1] at e0 e1 hall
      have hb := (hall 0).1
      simp only [row_start0, row_window0] at hb
      refine ⟨?_, Fin.ext ?_⟩
      · have : ((idx (ix2 e (0 : Fin 1))).toInt + ((0 : Nat) : Int)).toNat = p.val := e0
        omega
      · have : ((0 : Int) + (q'.val : Int)).toNat = q.val := e1
        omega
    · exact absurd h (by simp)
  · rintro ⟨hp, rfl⟩
    have hall : ∀ a : Fin 2, 0 ≤ (rowDims N D E wf).start (ix2 e q') idx a + ((rowDims N D E wf).window (ix2 e q') a : Int)
        ∧ (rowDims N D E wf).start (ix2 e q') idx a + ((rowDims N D E wf).window (ix2 e q') a : Int)
          < ((⟨2, ![N, D]⟩ : Shape).size a : Int) := by
      intro a
      match a with
      | ⟨0, _⟩ =>
        show 0 ≤ (rowDims N D E wf).start (ix2 e q') idx 0 + ((rowDims N D E wf).window (ix2 e q') 0 : Int)
          ∧ (rowDims N D E wf).start (ix2 e q') idx 0 + ((rowDims N D E wf).window (ix2 e q') 0 : Int) < (N : Int)
        rw [row_start0, row_window0, hp]
        have := p.isLt
        omega
      | ⟨1, _⟩ =>
        show 0 ≤ (rowDims N D E wf).start (ix2 e q') idx 1 + ((rowDims N D E wf).window (ix2 e q') 1 : Int)
          ∧ (rowDims N D E wf).start (ix2 e q') idx 1 + ((rowDims N D E wf).window (ix2 e q') 1 : Int) < (D : Int)
        rw [row_start1, row_window1]
        have := q'.isLt
        omega
    rw [dif_pos hall]
    refine congrArg some (funext fun a => Fin.ext ?_)
    match a with
    | ⟨0, _⟩ =>
      show ((rowDims N D E wf).start (ix2 e q') idx 0 + ((rowDims N D E wf).window (ix2 e q') 0 : Int)).toNat = p.val
      rw [row_start0, row_window0, hp]; omega
    | ⟨1, _⟩ =>
      show ((rowDims N D E wf).start (ix2 e q') idx 1 + ((rowDims N D E wf).window (ix2 e q') 1 : Int)).toNat = q'.val
      rw [row_start1, row_window1]; omega

end Rows

/-- THE ROW SCATTER READ AT (p, q): the operand's entry plus, over the updates e, the entry (e, q) of the updates
    whose row index is p. -/
theorem scatterAdd_rows_apply {N D E w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (p : Fin N) (q : Fin D) :
    Host.scatterAdd (rowDims N D E wf) x idx upd (ix2 p q)
      = x (ix2 p q) + ∑ e : Fin E, if (idx (ix2 e (0 : Fin 1))).toInt = (p.val : Int) then upd (ix2 e q) else 0 := by
  show Ideal.hostScatterAdd (rowDims N D E wf) x idx upd (ix2 p q) = _
  unfold Ideal.hostScatterAdd
  refine congrArg (x (ix2 p q) + ·) ?_
  rw [Finset.sum_filter, sum_idx2]
  refine Finset.sum_congr rfl fun e _ => ?_
  simp only [row_resultIdx_iff wf idx e _ p q]
  by_cases hp : (idx (ix2 e (0 : Fin 1))).toInt = (p.val : Int)
  · simp only [hp, true_and, if_true]
    rw [Finset.sum_ite_eq' Finset.univ q (fun b => upd (ix2 e b))]
    simp
  · simp only [hp, false_and, if_false, Finset.sum_const_zero]

/-- The dimension numbers of an entry scatter: operand [N], scatter indices [E, 1], updates [E]. -/
abbrev entryDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Entries
variable {N E w : Nat} (wf : ScatterDims.WF ⟨1, ![N]⟩ ⟨2, ![E, 1]⟩ ⟨1, ![E]⟩ [] [0] [0] 1)
  (idx : IVec ⟨2, ![E, 1]⟩ w) (e : Fin E)

theorem entry_start0 : (entryDims N E wf).start (ix1 e) idx 0 = (idx (ix2 e (0 : Fin 1))).toInt := by
  unfold ScatterDims.start
  rw [dif_pos (show (0 : Fin 1) ∈ (entryDims N E wf).scatterDimsToOperandDims from List.mem_singleton.mpr rfl)]
  have hsi : (entryDims N E wf).siIdx (ix1 e) ⟨List.idxOf (0 : Fin 1) (entryDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem entry_window0 : (entryDims N E wf).window (ix1 e) 0 = 0 := by
  unfold ScatterDims.window
  rw [dif_neg (show ¬ (0 : Fin 1) ∈ (entryDims N E wf).sKept from by
    simp [ScatterDims.sKept, Shape.kept])]

/-- An update entry e lands on p exactly when its index is p. -/
theorem entry_resultIdx_iff (p : Fin N) :
    (entryDims N E wf).resultIdx? (ix1 e) idx = some (ix1 p) ↔ (idx (ix2 e (0 : Fin 1))).toInt = (p.val : Int) := by
  unfold ScatterDims.resultIdx?
  constructor
  · intro h
    split at h
    · next hall =>
      have h0 := congrFun (Option.some.inj h) 0
      have e0 := congrArg Fin.val h0
      have hb := (hall 0).1
      simp only [entry_start0, entry_window0] at hb
      have : ((entryDims N E wf).start (ix1 e) idx 0 + ((entryDims N E wf).window (ix1 e) 0 : Int)).toNat = p.val := e0
      rw [entry_start0, entry_window0] at this
      omega
    · exact absurd h (by simp)
  · intro hp
    have hall : ∀ a : Fin 1, 0 ≤ (entryDims N E wf).start (ix1 e) idx a + ((entryDims N E wf).window (ix1 e) a : Int)
        ∧ (entryDims N E wf).start (ix1 e) idx a + ((entryDims N E wf).window (ix1 e) a : Int)
          < ((⟨1, ![N]⟩ : Shape).size a : Int) := by
      intro a
      obtain rfl : a = 0 := Subsingleton.elim _ _
      rw [entry_start0, entry_window0, hp]
      have := p.isLt
      show (0 : Int) ≤ (p.val : Int) + ((0 : Nat) : Int) ∧ (p.val : Int) + ((0 : Nat) : Int) < (N : Int)
      omega
    rw [dif_pos hall]
    refine congrArg some (funext fun a => Fin.ext ?_)
    obtain rfl : a = 0 := Subsingleton.elim _ _
    show ((entryDims N E wf).start (ix1 e) idx 0 + ((entryDims N E wf).window (ix1 e) 0 : Int)).toNat = p.val
    rw [entry_start0, entry_window0, hp]; omega

end Entries

/-- A sum over a rank-1 index is the sum over its coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- THE ENTRY SCATTER READ AT p: the operand's entry plus, over the updates e, the update whose index is p. -/
theorem scatterAdd_entries_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (p : Fin N) :
    Host.scatterAdd (entryDims N E wf) x idx upd (ix1 p)
      = x (ix1 p) + ∑ e : Fin E, if (idx (ix2 e (0 : Fin 1))).toInt = (p.val : Int) then upd (ix1 e) else 0 := by
  show Ideal.hostScatterAdd (entryDims N E wf) x idx upd (ix1 p) = _
  unfold Ideal.hostScatterAdd
  refine congrArg (x (ix1 p) + ·) ?_
  rw [Finset.sum_filter, sum_idx1]
  refine Finset.sum_congr rfl fun e _ => ?_
  simp only [entry_resultIdx_iff wf idx e p]

end Idealize.ShloMosaic.ScatterRows

end
-- ==== Proof.KValue.lean ====
/-
  The kernel program's result read at an entry, in the vocabulary of the specification.

  The degree of node r is read off the accumulating scatter of ones at the targets; the normalising factor column at
  (r, 0) is dinvOf of it; the pre-scaled row is the row through the layer norm and the weights times the row's
  factor; the summed incoming rows at (p, q) are, over the edges whose target is p, the pre-scaled rows gathered at
  the wrapped and clamped sources. With these the second kernel's gate is tanh of the kernel's aggregate.
-/
import proofs.«114811_j35897336660176_2_alg».proof.Proof.KHost
import proofs.«114811_j35897336660176_2_alg».proof.Proof.GcnSpec
import proofs.«114811_j35897336660176_2_alg».proof.Proof.LibGatherRows
import proofs.«114811_j35897336660176_2_alg».proof.Proof.LibScatterRows
import proofs.«114811_j35897336660176_2_alg».proof.Proof.LibRowOps

set_option maxRecDepth 16384

noncomputable section

open scoped BigOperators

namespace Cert.KernelIdeal.KValue

open Cert.KernelIdeal Cert.KernelIdeal.Gen Idealize.ShloMosaic Idealize.ShloMosaic.ValueIdx
open Cert.GcnRows Cert.GcnSpec Cert.GcnLaw Cert.EdgeIdx Cert.KernelIdeal.Blocks Cert.KernelIdeal.HostSide

variable (x : S50000x128.Idx → EReal) (ei : S2x800000.Idx → BitVec 32) (g β bias : S128.Idx → EReal)
  (W : S128x128.Idx → EReal)

/-- The sources and the targets, as words. -/
def rowW (a : Fin 800000) : BitVec 32 := ei (ix2 (0 : Fin 2) a)
def colW (a : Fin 800000) : BitVec 32 := ei (ix2 (1 : Fin 2) a)

/-- The table of rows through the layer norm and the weights. -/
def linT (r : Fin 50000) (j : Fin 128) : EReal := rowLin (fun k => x (ix2 r k)) g β W j

theorem rowK_at (a : Fin 800000) : rowK ei (ix1 a) = rowW ei a :=
  edgeRow0_apply ei slices_S2x800000_S1x800000_0_0 shapeCasts_S1x800000_S800000 a

theorem colK_at (a : Fin 800000) : colK ei (ix1 a) = colW ei a :=
  edgeRow1_apply ei slices_S2x800000_S1x800000_1_0 shapeCasts_S1x800000_S800000 a

theorem colIdx_at (a : Fin 800000) :
    broadcastInDim S800000x1 ![0] bcast_S800000_S800000x1_0 (colK ei) (ix2 a (0 : Fin 1)) = colW ei a := by
  rw [RowOps.colInDim_apply]
  exact colK_at ei a

theorem deg_at (r : Fin 50000) : degK ei (ix1 r) = degN (colW ei) r := by
  unfold degK
  refine (addf_apply _ _ _).trans ?_
  rw [show scatter_S50000_S800000x1_S800000_n_0_0_1
      = ScatterRows.entryDims 50000 800000 scatter_S50000_S800000x1_S800000_n_0_0_1_wf from rfl]
  rw [ScatterRows.scatterAdd_entries_apply]
  unfold degN
  refine congrArg₂ (· + ·) (congrArg₂ (· + ·) rfl (Finset.sum_congr rfl fun a _ => ?_)) rfl
  rw [colIdx_at]
  rfl

/-- The normalising factors of any vector of degrees, entry by entry. -/
theorem dinv_of_vec (dg : FVec Ideal S50000 .f32) (i : S50000.Idx) :
    select (cmpf .ogt dg (broadcastInDim S50000 ![] bcast_S_S50000 (constant (F := Ideal) S_ .f32 0x00000000#32)))
      (Host.rsqrt (maximumf dg (broadcastInDim S50000 ![] bcast_S_S50000 (constant (F := Ideal) S_ .f32 0x2B8CBCCC#32))))
      (broadcastInDim S50000 ![] bcast_S_S50000 (id (constant (F := Ideal) S_ .f32 0x00000000#32))) i
    = dinvOf (dg i) := rfl

theorem dv_at (r : Fin 50000) : dvK ei (ix2 r (0 : Fin 1)) = dinvN (colW ei) r := by
  unfold dvK
  rw [RowOps.colCast_apply]
  unfold dinvK
  refine (dinv_of_vec (degK ei) (ix1 r)).trans ?_
  unfold dinvN
  exact congrArg dinvOf (deg_at ei r)

theorem h2_at (r : Fin 50000) (q : Fin 128) :
    h2K x ei g β W (ix2 r q) = linT x g β W r q * dinvN (colW ei) r := by
  show rowLin (fun k => x (ix2 r k)) g β W q * dvK ei (ix2 r (0 : Fin 1)) = _
  rw [dv_at]
  rfl

theorem srcIdx_at (a : Fin 800000) :
    broadcastInDim S800000x1 ![0] bcast_S800000_S800000x1_0
      (select (cmpi .slt (rowK ei) (broadcastInDim S800000 ![] bcast_S_S800000 (constantI S_ 32 0#32)))
        (addi (rowK ei) (broadcastInDim S800000 ![] bcast_S_S800000 (constantI S_ 32 50000#32))) (rowK ei))
      (ix2 a (0 : Fin 1)) = wrapW (rowW ei a) := by
  rw [RowOps.colInDim_apply]
  show wrapW (rowK ei (ix1 a)) = _
  rw [rowK_at]

theorem seg_at (h2 : S50000x128.Idx → EReal) (p : Fin 50000) (q : Fin 128) :
    segK ei h2 (ix2 p q) = Ideal.ofBits .f32 0x00000000#32
      + ∑ a : Fin 800000, if (colW ei a).toInt = (p.val : Int) then h2 (ix2 (rowOf (rowW ei a)) q) else 0 := by
  unfold segK
  rw [show scatter_S50000x128_S800000x1_S800000x128_1_0_0_1
      = ScatterRows.rowDims 50000 128 800000 scatter_S50000x128_S800000x1_S800000x128_1_0_0_1_wf from rfl]
  rw [ScatterRows.scatterAdd_rows_apply]
  refine congrArg₂ (· + ·) rfl (Finset.sum_congr rfl fun a _ => ?_)
  rw [colIdx_at]
  refine if_congr Iff.rfl ?_ rfl
  show Host.gather gather_S50000x128_S800000x1_S800000x128_1_0_n_n_0_1_1128 (h2 : FVec Ideal S50000x128 .bf16) _ (ix2 a q) = _
  rw [show gather_S50000x128_S800000x1_S800000x128_1_0_n_n_0_1_1128
      = GatherRows.rowDims 50000 128 800000 gather_S50000x128_S800000x1_S800000x128_1_0_n_n_0_1_1128_wf from rfl]
  rw [GatherRows.gather_rows_apply (by decide : 0 < 50000)]
  exact congrArg (fun w : BitVec 32 => h2 (ix2 (⟨min w.toInt.toNat (50000 - 1), by omega⟩ : Fin 50000) q)) (srcIdx_at ei a)

/-- THE KERNEL PROGRAM AT (p, q): the gate tanh(aggregate) times the input. -/
theorem out_at (p : Fin 50000) (q : Fin 128) :
    outK x ei g β W bias (ix2 p q)
      = Ideal.tanh (aggK (linT x g β W) (rowW ei) (colW ei) (bias (ix1 q)) p q) * x (ix2 p q) := by
  show Ideal.tanh ((dvK ei (ix2 p (0 : Fin 1)) * segK ei (h2K x ei g β W) (ix2 p q)
      + (Ideal.ofBits .f32 0x40000000#32 * dvK ei (ix2 p (0 : Fin 1))) * h2K x ei g β W (ix2 p q)) + bias (ix1 q))
    * x (ix2 p q) = _
  rw [dv_at, seg_at, h2_at]
  unfold aggK
  refine congrArg (fun z => Ideal.tanh z * x (ix2 p q)) ?_
  refine congrArg₂ (· + ·) (congrArg₂ (· + ·) (congrArg₂ (· * ·) rfl (congrArg₂ (· + ·) rfl
    (Finset.sum_congr rfl fun a _ => if_congr Iff.rfl (h2_at x ei g β W _ q) rfl))) rfl) rfl

end Cert.KernelIdeal.KValue

end
-- ==== Proof.RefValue.lean ====
/-
  The reference's result read at an entry, stage by stage.

  Row r of the input goes through the layer norm and the weights (rowLin); the edge list, with the self loops appended,
  gives the degrees by an accumulating scatter of the edge weights (1 on an edge, 2 on a self loop), the normalising
  factors dinvOf of them, and per edge the weight dinv(src) · w · dinv(tgt); the rows gathered at the sources, times the
  weights, are scattered at the targets. The sums over the 850000 entries split into the 800000 edges and the 50000
  self loops, of which exactly one lands on a given node.
-/
import proofs.«114811_j35897336660176_2_alg».proof.Proof.ReadP
import proofs.«114811_j35897336660176_2_alg».proof.Proof.GcnRows
import proofs.«114811_j35897336660176_2_alg».proof.Proof.GcnSpec
import proofs.«114811_j35897336660176_2_alg».proof.Proof.LibGatherRows
import proofs.«114811_j35897336660176_2_alg».proof.Proof.LibScatterRows
import proofs.«114811_j35897336660176_2_alg».proof.Proof.LibSums
import proofs.«114811_j35897336660176_2_alg».proof.Proof.LibRowOps

set_option maxRecDepth 16384

noncomputable section

open scoped BigOperators

namespace Cert.ReferenceIdeal.RefValue

open Cert.ReferenceIdeal Cert.ReferenceIdeal.Gen Cert.ReferenceIdeal.ReadP Idealize.ShloMosaic Idealize.ShloMosaic.ValueIdx
open Cert.GcnRows Cert.GcnSpec Cert.GcnLaw Cert.EdgeIdx

variable (x0 : (⟨S50000x128, .f32⟩ : BufTy).Contents (Elt Ideal)) (x1 : (⟨S2x800000, .i32⟩ : BufTy).Contents (Elt Ideal))
  (x2 x3 x5 : (⟨S128, .f32⟩ : BufTy).Contents (Elt Ideal)) (x4 : (⟨S128x128, .f32⟩ : BufTy).Contents (Elt Ideal))

/-! ## The layer norm and the weights, per row -/

theorem mean_at (r : Fin 50000) :
    val_main_v3 (F := Ideal) x0 (ix2 r (0 : Fin 1)) = rowMean (fun k => x0 (ix2 r k)) := by
  rw [val_main_v3_apply, val_main_v1_apply, val_main_v0_apply, val_main_v2_apply]
  unfold rowMean
  show Ideal.div (Ideal.ofBits .f32 0x00000000#32 + _) (Ideal.ofBits .f32 0x43000000#32) = _
  rw [Ideal.ofBits_zero_f32, zero_add]
  refine congrArg₂ Ideal.div (Finset.sum_congr rfl fun k _ => congrArg x0 ?_) rfl
  funext a; apply Fin.ext
  match a with
  | ⟨0, _⟩ => rfl
  | ⟨1, _⟩ => rfl

theorem dev5_at (r : Fin 50000) (k : Fin 128) :
    val_main_v5 (F := Ideal) x0 (ix2 r k) = x0 (ix2 r k) - rowMean (fun k => x0 (ix2 r k)) := by
  rw [val_main_v5_apply, val_main_v4_apply]
  have hi : idx_main_v4 (ix2 r k) = ix2 r (0 : Fin 1) := funext fun a => Fin.ext (by
    match a with
    | ⟨0, _⟩ => rfl
    | ⟨1, _⟩ => rfl)
  rw [hi, mean_at]
  rfl

theorem dev12_at (r : Fin 50000) (k : Fin 128) :
    val_main_v12 (F := Ideal) x0 (ix2 r k) = x0 (ix2 r k) - rowMean (fun k => x0 (ix2 r k)) := by
  rw [val_main_v12_apply, val_main_v11_apply]
  have hi : idx_main_v11 (ix2 r k) = ix2 r (0 : Fin 1) := funext fun a => Fin.ext (by
    match a with
    | ⟨0, _⟩ => rfl
    | ⟨1, _⟩ => rfl)
  rw [hi, mean_at]
  rfl

theorem var_at (r : Fin 50000) :
    val_main_v10 (F := Ideal) x0 (ix2 r (0 : Fin 1)) = rowVar (fun k => x0 (ix2 r k)) := by
  rw [val_main_v10_apply, val_main_v8_apply, val_main_v7_apply, val_main_v9_apply]
  unfold rowVar
  show Ideal.div (Ideal.ofBits .f32 0x00000000#32 + _) (Ideal.ofBits .f32 0x43000000#32) = _
  rw [Ideal.ofBits_zero_f32, zero_add]
  refine congrArg₂ Ideal.div (Finset.sum_congr rfl fun k _ => ?_) rfl
  have hi : idx_main_v7 (idx_main_v8 (ix2 r (0 : Fin 1))) k = ix2 r k := funext fun a => Fin.ext (by
    match a with
    | ⟨0, _⟩ => rfl
    | ⟨1, _⟩ => rfl)
  rw [hi, val_main_v6_apply, dev5_at]
  rfl

theorem gate_at (r : Fin 50000) (k : Fin 128) :
    val_main_v23 (F := Ideal) x0 x2 x3 (ix2 r k) = rowGate (fun k => x0 (ix2 r k)) x2 x3 k := by
  rw [val_main_v23_apply, val_main_v20_apply, val_main_v17_apply, val_main_v22_apply, val_main_v21_apply,
    val_main_v19_apply, val_main_v18_apply, val_main_v16_apply, val_main_v15_apply, val_main_v14_apply,
    val_main_v13_apply, dev12_at]
  have h16 : idx_main_v16 (ix2 r k) = ix2 r (0 : Fin 1) := funext fun a => Fin.ext (by
    match a with
    | ⟨0, _⟩ => rfl
    | ⟨1, _⟩ => rfl)
  have h19 : idx_main_v18 (idx_main_v19 (ix2 r k)) = ix1 k := funext fun a => Fin.ext (by
    match a with
    | ⟨0, _⟩ => rfl)
  have h22 : idx_main_v21 (idx_main_v22 (ix2 r k)) = ix1 k := funext fun a => Fin.ext (by
    match a with
    | ⟨0, _⟩ => rfl)
  rw [h16, h19, h22, var_at]
  rfl

theorem lin_at (r : Fin 50000) (j : Fin 128) :
    val_main_v25 (F := Ideal) x0 x2 x3 x4 (ix2 r j) = rowLin (fun k => x0 (ix2 r k)) x2 x3 x4 j := by
  rw [val_main_v25_apply]
  unfold rowLin
  refine Finset.sum_congr rfl fun k _ => ?_
  have hl : lidx_main_v25 (ix2 r j) k = ix2 r k := funext fun a => Fin.ext (by
    match a with
    | ⟨0, _⟩ => rfl
    | ⟨1, _⟩ => rfl)
  have hr : idx_main_v24 (ridx_main_v25 (ix2 r j) k) = ix2 j k := funext fun a => Fin.ext (by
    match a with
    | ⟨0, _⟩ => rfl
    | ⟨1, _⟩ => rfl)
  rw [hl, val_main_v24_apply, hr, gate_at]

/-! ## The edge list with the self loops appended -/

/-- The sources and the targets, as words. -/
def rowW (a : Fin 800000) : BitVec 32 := x1 (ix2 (0 : Fin 2) a)
def colW (a : Fin 800000) : BitVec 32 := x1 (ix2 (1 : Fin 2) a)

theorem v27_at (a : Fin 800000) : val_main_v27 (F := Ideal) x1 (ix1 a) = rowW x1 a :=
  edgeRow0_apply x1 slices_S2x800000_S1x800000_0_0 shapeCasts_S1x800000_S800000 a

theorem v31_at (a : Fin 800000) : val_main_v31 (F := Ideal) x1 (ix1 a) = colW x1 a :=
  edgeRow1_apply x1 slices_S2x800000_S1x800000_1_0 shapeCasts_S1x800000_S800000 a

theorem v29_left (a : Fin 800000) (ha : a.val < 850000) :
    val_main_v29 (F := Ideal) x1 (ix1 (⟨a.val, ha⟩ : Fin 850000)) = rowW x1 a :=
  (cat_left _ _ concatenates_S800000_S50000_S850000_d0 a ha).trans (v27_at x1 a)

theorem v29_right (b : Fin 50000) (hb : 800000 + b.val < 850000) :
    val_main_v29 (F := Ideal) x1 (ix1 (⟨800000 + b.val, hb⟩ : Fin 850000)) = BitVec.ofNat 32 b.val :=
  cat_right _ _ concatenates_S800000_S50000_S850000_d0 b hb

theorem v33_left (a : Fin 800000) (ha : a.val < 850000) :
    val_main_v33 (F := Ideal) x1 (ix1 (⟨a.val, ha⟩ : Fin 850000)) = colW x1 a :=
  (cat_left _ _ concatenates_S800000_S50000_S850000_d0 a ha).trans (v31_at x1 a)

theorem v33_right (b : Fin 50000) (hb : 800000 + b.val < 850000) :
    val_main_v33 (F := Ideal) x1 (ix1 (⟨800000 + b.val, hb⟩ : Fin 850000)) = BitVec.ofNat 32 b.val :=
  cat_right _ _ concatenates_S800000_S50000_S850000_d0 b hb

theorem v36_left (a : Fin 800000) (ha : a.val < 850000) :
    val_main_v36 (F := Ideal) (ix1 (⟨a.val, ha⟩ : Fin 850000)) = Ideal.ofBits .f32 0x3F800000#32 :=
  (cat_left _ _ concatenates_S800000_S50000_S850000_d0 a ha).trans (by rw [val_main_v34_apply]; rfl)

theorem v36_right (b : Fin 50000) (hb : 800000 + b.val < 850000) :
    val_main_v36 (F := Ideal) (ix1 (⟨800000 + b.val, hb⟩ : Fin 850000)) = Ideal.ofBits .f32 0x40000000#32 :=
  (cat_right _ _ concatenates_S800000_S50000_S850000_d0 b hb).trans (by rw [val_main_v35_apply]; rfl)

/-- The iota's word at b lands on node r exactly when b = r. -/
theorem iota_hits (b r : Fin 50000) : (BitVec.ofNat 32 b.val).toInt = (r.val : Int) ↔ b = r := by
  rw [iota_toInt]
  constructor
  · intro h; exact Fin.ext (by omega)
  · rintro rfl; rfl

/-! ## The degrees and the normalising factors -/

theorem deg_at (r : Fin 50000) : val_main_v39 (F := Ideal) x1 (ix1 r) = degN (colW x1) r := by
  unfold val_main_v39
  rw [show scatter_S50000_S850000x1_S850000_n_0_0_1 = ScatterRows.entryDims 50000 850000 scatter_S50000_S850000x1_S850000_n_0_0_1_wf from rfl]
  rw [ScatterRows.scatterAdd_entries_apply, Cert.LibSums.sum_fin_add 800000 50000 rfl]
  unfold degN
  rw [val_main_v37_apply, ← add_assoc]
  have hA : ∀ a : Fin 800000,
      (if (val_main_v38 (F := Ideal) x1 (ix2 (⟨a.val, by have := a.isLt; omega⟩ : Fin 850000) (0 : Fin 1))).toInt = (r.val : Int)
        then val_main_v36 (F := Ideal) (ix1 (⟨a.val, by have := a.isLt; omega⟩ : Fin 850000)) else 0)
      = if (colW x1 a).toInt = (r.val : Int) then Ideal.ofBits .f32 0x3F800000#32 else 0 := by
    intro a
    rw [val_main_v38_apply, v36_left]
    have hi : idx_main_v38 (ix2 (⟨a.val, by have := a.isLt; omega⟩ : Fin 850000) (0 : Fin 1)) = ix1 (⟨a.val, by have := a.isLt; omega⟩ : Fin 850000) :=
      funext fun c => Fin.ext (by
        match c with
        | ⟨0, _⟩ => rfl)
    rw [hi, v33_left]
  have hB : ∀ b : Fin 50000,
      (if (val_main_v38 (F := Ideal) x1 (ix2 (⟨800000 + b.val, by have := b.isLt; omega⟩ : Fin 850000) (0 : Fin 1))).toInt = (r.val : Int)
        then val_main_v36 (F := Ideal) (ix1 (⟨800000 + b.val, by have := b.isLt; omega⟩ : Fin 850000)) else 0)
      = if b = r then Ideal.ofBits .f32 0x40000000#32 else 0 := by
    intro b
    rw [val_main_v38_apply, v36_right]
    have hi : idx_main_v38 (ix2 (⟨800000 + b.val, by have := b.isLt; omega⟩ : Fin 850000) (0 : Fin 1)) = ix1 (⟨800000 + b.val, by have := b.isLt; omega⟩ : Fin 850000) :=
      funext fun c => Fin.ext (by
        match c with
        | ⟨0, _⟩ => rfl)
    rw [hi, v33_right]
    exact if_congr (iota_hits b r) rfl rfl
  rw [Finset.sum_congr rfl (fun a _ => hA a), Finset.sum_congr rfl (fun b _ => hB b), Finset.sum_ite_eq' Finset.univ r]
  simp only [Finset.mem_univ, if_true]
  rfl

theorem dinv_at (r : Fin 50000) : val_main_v45 (F := Ideal) x1 (ix1 r) = dinvN (colW x1) r := by
  rw [val_main_v45_apply, val_main_v41_apply, val_main_v44_apply, val_main_v43_apply, deg_at, val_main_v40_apply,
    val_main_v42_apply, val_main_call0_v1_apply, val_main_call0_v0_apply, val_main_cst_7_apply, val_main_cst_8_apply,
    val_main_cst_9_apply]
  unfold dinvN dinvOf
  simp only [Ideal.maximumf_def, Ideal.hostUnary_rsqrt_def, Ideal.ofBits_def]
  rfl

/-! ## The wrapped index words, the gathers and the edge weights -/

theorem wrap50_at (e : Fin 850000) :
    val_main_v50 (F := Ideal) x1 (ix1 e) = wrapW (val_main_v29 (F := Ideal) x1 (ix1 e)) := by
  rw [val_main_v50_apply, val_main_v47_apply, val_main_v49_apply, val_main_v46_apply, val_main_v48_apply]
  rfl

theorem wrap58_at (e : Fin 850000) :
    val_main_v58 (F := Ideal) x1 (ix1 e) = wrapW (val_main_v33 (F := Ideal) x1 (ix1 e)) := by
  rw [val_main_v58_apply, val_main_v55_apply, val_main_v57_apply, val_main_v54_apply, val_main_v56_apply]
  rfl

theorem wrap66_at (e : Fin 850000) :
    val_main_v66 (F := Ideal) x1 (ix1 e) = wrapW (val_main_v29 (F := Ideal) x1 (ix1 e)) := by
  rw [val_main_v66_apply, val_main_v63_apply, val_main_v65_apply, val_main_v62_apply, val_main_v64_apply]
  rfl

/-- The factor gathered at the source of entry e. -/
theorem v52_at (e : Fin 850000) :
    val_main_v52 (F := Ideal) x1 (ix1 e) = dinvN (colW x1) (rowOf (val_main_v29 (F := Ideal) x1 (ix1 e))) := by
  unfold val_main_v52
  rw [show gather_S50000_S850000x1_S850000_n_0_n_n_0_1_1
      = GatherRows.entryDims 50000 850000 gather_S50000_S850000x1_S850000_n_0_n_n_0_1_1_wf from rfl]
  rw [GatherRows.gather_entries_apply (by decide : 0 < 50000)]
  have hv : val_main_v51 (F := Ideal) x1 (ix2 e (0 : Fin 1)) = wrapW (val_main_v29 (F := Ideal) x1 (ix1 e)) := by
    rw [val_main_v51_apply]
    have hi : idx_main_v51 (ix2 e (0 : Fin 1)) = ix1 e := funext fun c => Fin.ext (by
      match c with
      | ⟨0, _⟩ => rfl)
    rw [hi, wrap50_at]
  exact (congrArg (fun w : BitVec 32 => val_main_v45 (F := Ideal) x1
      (ix1 (⟨min w.toInt.toNat (50000 - 1), by omega⟩ : Fin 50000))) hv).trans (dinv_at x1 _)

/-- The factor gathered at the target of entry e. -/
theorem v60_at (e : Fin 850000) :
    val_main_v60 (F := Ideal) x1 (ix1 e) = dinvN (colW x1) (rowOf (val_main_v33 (F := Ideal) x1 (ix1 e))) := by
  unfold val_main_v60
  rw [show gather_S50000_S850000x1_S850000_n_0_n_n_0_1_1
      = GatherRows.entryDims 50000 850000 gather_S50000_S850000x1_S850000_n_0_n_n_0_1_1_wf from rfl]
  rw [GatherRows.gather_entries_apply (by decide : 0 < 50000)]
  have hv : val_main_v59 (F := Ideal) x1 (ix2 e (0 : Fin 1)) = wrapW (val_main_v33 (F := Ideal) x1 (ix1 e)) := by
    rw [val_main_v59_apply]
    have hi : idx_main_v59 (ix2 e (0 : Fin 1)) = ix1 e := funext fun c => Fin.ext (by
      match c with
      | ⟨0, _⟩ => rfl)
    rw [hi, wrap58_at]
  exact (congrArg (fun w : BitVec 32 => val_main_v45 (F := Ideal) x1
      (ix1 (⟨min w.toInt.toNat (50000 - 1), by omega⟩ : Fin 50000))) hv).trans (dinv_at x1 _)

/-- The row gathered at the source of entry e. -/
theorem v68_at (e : Fin 850000) (q : Fin 128) :
    val_main_v68 (F := Ideal) x0 x1 x2 x3 x4 (ix2 e q)
      = rowLin (fun k => x0 (ix2 (rowOf (val_main_v29 (F := Ideal) x1 (ix1 e))) k)) x2 x3 x4 q := by
  unfold val_main_v68
  rw [show gather_S50000x128_S850000x1_S850000x128_1_0_n_n_0_1_1128
      = GatherRows.rowDims 50000 128 850000 gather_S50000x128_S850000x1_S850000x128_1_0_n_n_0_1_1128_wf from rfl]
  rw [GatherRows.gather_rows_apply (by decide : 0 < 50000)]
  have hv : val_main_v67 (F := Ideal) x1 (ix2 e (0 : Fin 1)) = wrapW (val_main_v29 (F := Ideal) x1 (ix1 e)) := by
    rw [val_main_v67_apply]
    have hi : idx_main_v67 (ix2 e (0 : Fin 1)) = ix1 e := funext fun c => Fin.ext (by
      match c with
      | ⟨0, _⟩ => rfl)
    rw [hi, wrap66_at]
  exact (congrArg (fun w : BitVec 32 => val_main_v25 (F := Ideal) x0 x2 x3 x4
      (ix2 (⟨min w.toInt.toNat (50000 - 1), by omega⟩ : Fin 50000) q)) hv).trans (lin_at x0 x2 x3 x4 _ q)

/-- The edge weight of entry e. -/
theorem v61_at (e : Fin 850000) :
    val_main_v61 (F := Ideal) x1 (ix1 e)
      = (dinvN (colW x1) (rowOf (val_main_v29 (F := Ideal) x1 (ix1 e))) * val_main_v36 (F := Ideal) (ix1 e))
        * dinvN (colW x1) (rowOf (val_main_v33 (F := Ideal) x1 (ix1 e))) := by
  rw [val_main_v61_apply, val_main_v53_apply, v52_at, v60_at]
  rfl

/-- The weighted row of entry e. -/
theorem v71_at (e : Fin 850000) (q : Fin 128) :
    val_main_v71 (F := Ideal) x0 x1 x2 x3 x4 (ix2 e q)
      = rowLin (fun k => x0 (ix2 (rowOf (val_main_v29 (F := Ideal) x1 (ix1 e))) k)) x2 x3 x4 q
        * ((dinvN (colW x1) (rowOf (val_main_v29 (F := Ideal) x1 (ix1 e))) * val_main_v36 (F := Ideal) (ix1 e))
          * dinvN (colW x1) (rowOf (val_main_v33 (F := Ideal) x1 (ix1 e)))) := by
  rw [val_main_v71_apply, v68_at, val_main_v70_apply, val_main_v69_apply]
  have hi : idx_main_v69 (idx_main_v70 (ix2 e q)) = ix1 e := funext fun c => Fin.ext (by
    match c with
    | ⟨0, _⟩ => rfl)
  rw [hi, v61_at]
  rfl

/-- The target word of entry e, as the scatter reads it. -/
theorem v73_at (e : Fin 850000) :
    val_main_v73 (F := Ideal) x1 (ix2 e (0 : Fin 1)) = val_main_v33 (F := Ideal) x1 (ix1 e) := by
  rw [val_main_v73_apply]
  have hi : idx_main_v73 (ix2 e (0 : Fin 1)) = ix1 e := funext fun c => Fin.ext (by
    match c with
    | ⟨0, _⟩ => rfl)
  rw [hi]

/-! ## The aggregate and the result -/

/-- The table of rows through the layer norm and the weights. -/
def linT (r : Fin 50000) (j : Fin 128) : EReal := rowLin (fun k => x0 (ix2 r k)) x2 x3 x4 j

theorem agg_at (p : Fin 50000) (q : Fin 128) :
    val_main_v77 (F := Ideal) x0 x1 x2 x3 x4 x5 (ix2 p q)
      = aggR (linT x0 x2 x3 x4) (rowW x1) (colW x1) (x5 (ix1 q)) p q := by
  rw [val_main_v77_apply, val_main_v76_apply, val_main_v75_apply]
  have h76 : idx_main_v75 (idx_main_v76 (ix2 p q)) = ix1 q := funext fun c => Fin.ext (by
    match c with
    | ⟨0, _⟩ => rfl)
  rw [h76]
  unfold val_main_v74
  rw [show scatter_S50000x128_S850000x1_S850000x128_1_0_0_1
      = ScatterRows.rowDims 50000 128 850000 scatter_S50000x128_S850000x1_S850000x128_1_0_0_1_wf from rfl]
  rw [ScatterRows.scatterAdd_rows_apply, Cert.LibSums.sum_fin_add 800000 50000 rfl]
  unfold aggR
  rw [val_main_v72_apply]
  have hA : ∀ a : Fin 800000,
      (if (val_main_v73 (F := Ideal) x1 (ix2 (⟨a.val, by have := a.isLt; omega⟩ : Fin 850000) (0 : Fin 1))).toInt = (p.val : Int)
        then val_main_v71 (F := Ideal) x0 x1 x2 x3 x4 (ix2 (⟨a.val, by have := a.isLt; omega⟩ : Fin 850000) q) else 0)
      = if (colW x1 a).toInt = (p.val : Int)
          then linT x0 x2 x3 x4 (rowOf (rowW x1 a)) q
            * ((dinvN (colW x1) (rowOf (rowW x1 a)) * Ideal.ofBits .f32 0x3F800000#32) * dinvN (colW x1) p) else 0 := by
    intro a
    rw [v73_at, v33_left]
    by_cases h : (colW x1 a).toInt = (p.val : Int)
    · rw [if_pos h, if_pos h, v71_at, v29_left, v33_left, v36_left, rowOf_of_toInt _ p h]
      rfl
    · rw [if_neg h, if_neg h]
  have hB : ∀ b : Fin 50000,
      (if (val_main_v73 (F := Ideal) x1 (ix2 (⟨800000 + b.val, by have := b.isLt; omega⟩ : Fin 850000) (0 : Fin 1))).toInt = (p.val : Int)
        then val_main_v71 (F := Ideal) x0 x1 x2 x3 x4 (ix2 (⟨800000 + b.val, by have := b.isLt; omega⟩ : Fin 850000) q) else 0)
      = if b = p
          then linT x0 x2 x3 x4 p q * ((dinvN (colW x1) p * Ideal.ofBits .f32 0x40000000#32) * dinvN (colW x1) p) else 0 := by
    intro b
    rw [v73_at, v33_right]
    by_cases h : b = p
    · subst h
      rw [if_pos ((iota_hits b b).mpr rfl), if_pos rfl, v71_at, v29_right, v33_right, v36_right,
        rowOf_of_toInt _ b (iota_toInt b)]
      rfl
    · rw [if_neg (fun hh => h ((iota_hits b p).mp hh)), if_neg h]
  rw [Finset.sum_congr rfl (fun a _ => hA a), Finset.sum_congr rfl (fun b _ => hB b), Finset.sum_ite_eq' Finset.univ p]
  simp only [Finset.mem_univ, if_true]
  rfl

/-- THE REFERENCE AT (p, q): the gate tanh(aggregate) times the input. -/
theorem out_at (p : Fin 50000) (q : Fin 128) :
    val_main_v79 (F := Ideal) x0 x1 x2 x3 x4 x5 (ix2 p q)
      = Ideal.tanh (aggR (linT x0 x2 x3 x4) (rowW x1) (colW x1) (x5 (ix1 q)) p q) * x0 (ix2 p q) := by
  rw [val_main_v79_apply, val_main_v78_apply, agg_at]
  simp only [Ideal.mulf_def, Ideal.hostUnary_tanh_def]

end Cert.ReferenceIdeal.RefValue

end
-- ==== Proof.lean ====
/-
  The claims of this certificate.

  The kernel program normalises each row, maps it through the weights, pre-scales it by the row's normalising factor,
  sums the pre-scaled rows over the incoming edges on the host, and in a second kernel multiplies the sum by the
  target's factor, adds the doubled self loop and the bias, and gates the input by tanh. The reference appends the
  self loops to the edge list and weights every gathered row by dinv(src) · w · dinv(tgt) before summing. Entry by
  entry the two results are tanh of two arrangements of one aggregate (GcnSpec), equal because the normalising factor
  is a real that is not negative and such a factor distributes over finite sums of extended reals (GcnLaw); the
  finiteness of the inputs is not used.

  The three frames are the generated ones (the reference's is its run with the result dropped); the ideal pass
  rewrote nothing, so preserves has nothing to state.
-/
import proofs.«114811_j35897336660176_2_alg».proof.Defs
import proofs.«114811_j35897336660176_2_alg».proof.Proof.Gen.Kernel
import proofs.«114811_j35897336660176_2_alg».proof.Proof.Gen.Kernel.Skeleton
import proofs.«114811_j35897336660176_2_alg».proof.Proof.Gen.Kernel.Launch
import proofs.«114811_j35897336660176_2_alg».proof.Proof.Gen.Kernel.Points
import proofs.«114811_j35897336660176_2_alg».proof.Proof.Gen.Kernel.Frame
import proofs.«114811_j35897336660176_2_alg».proof.Proof.Gen.KernelIdeal
import proofs.«114811_j35897336660176_2_alg».proof.Proof.Gen.KernelIdeal.Skeleton
import proofs.«114811_j35897336660176_2_alg».proof.Proof.Gen.KernelIdeal.Launch
import proofs.«114811_j35897336660176_2_alg».proof.Proof.Gen.KernelIdeal.Points
import proofs.«114811_j35897336660176_2_alg».proof.Proof.Gen.KernelIdeal.Frame
import proofs.«114811_j35897336660176_2_alg».proof.Proof.Gen.ReferenceIdeal
import proofs.«114811_j35897336660176_2_alg».proof.Proof.Gen.Pre_finite_inputs
import proofs.«114811_j35897336660176_2_alg».proof.Proof.ReadP
import proofs.«114811_j35897336660176_2_alg».proof.Proof.KRun
import proofs.«114811_j35897336660176_2_alg».proof.Proof.KValue
import proofs.«114811_j35897336660176_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The two programs' results are one function of the argument arrays. -/
theorem result_eq (x : Cert.KernelIdeal.S50000x128.Idx → EReal) (ei : Cert.KernelIdeal.S2x800000.Idx → BitVec 32)
    (g b : Cert.KernelIdeal.S128.Idx → EReal) (W : Cert.KernelIdeal.S128x128.Idx → EReal)
    (bias : Cert.KernelIdeal.S128.Idx → EReal) :
    Cert.ReferenceIdeal.ReadP.val_main_v79 (F := Ideal) x ei g b W bias
      = Cert.KernelIdeal.HostSide.outK x ei g b W bias := by
  funext i
  obtain ⟨p, q, rfl⟩ : ∃ (p : Fin 50000) (q : Fin 128), i = ix2 p q := ⟨i 0, i 1, eq_ix2 i⟩
  rw [Cert.ReferenceIdeal.RefValue.out_at, Cert.KernelIdeal.KValue.out_at, ← Cert.GcnSpec.aggK_eq_aggR]
  rw [show Cert.ReferenceIdeal.RefValue.linT x g b W = Cert.KernelIdeal.KValue.linT x g b W from rfl,
    show Cert.ReferenceIdeal.RefValue.rowW ei = Cert.KernelIdeal.KValue.rowW ei from rfl,
    show Cert.ReferenceIdeal.RefValue.colW ei = Cert.KernelIdeal.KValue.colW ei from rfl]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs run, and end with the same result array. -/
theorem algebraic : Cert.algebraic_KernelIdeal_ReferenceIdeal := by
  intro m ρ m' ρ' _ hagree
  refine ⟨fun c => Cert.KernelIdeal.HostSide.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.HostSide.result m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.ValueP.run (F := Ideal) m' ρ')
    refine (Cert.ReferenceIdeal.ReadP.val_main_v79_eq m' c).trans ?_
    rw [(hagree c).1, (hagree c).2.1, (hagree c).2.2.1, (hagree c).2.2.2.1, (hagree c).2.2.2.2.1, (hagree c).2.2.2.2.2]
    exact result_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
